-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v10)) (v3 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_v11) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_v12) = v2 c
          ∧ r.2.mem ((c.tc : Thread Cert.ReferenceIdeal.nD Cert.ReferenceIdeal.τ).loc Cert.ReferenceIdeal.main_v19) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x2048 : Shape := ⟨2, ![8192, 2048]⟩
abbrev S2048x1024 : Shape := ⟨2, ![2048, 1024]⟩
abbrev S2048x2048 : Shape := ⟨2, ![2048, 2048]⟩
abbrev S2048 : Shape := ⟨1, ![2048]⟩
abbrev S1024x2048 : Shape := ⟨2, ![1024, 2048]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S2048 .f32) (main_arg5 : FVec F S1024x2048 .f32) (main_arg6 : FVec F S1024 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S1024x2048 .f32 := Host.absf main_arg5
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S8192x1024 .f32) (main_arg1 : FVec F S8192x2048 .f32) (main_arg2 : FVec F S2048x1024 .f32) (main_arg3 : FVec F S2048x2048 .f32) (main_arg4 : FVec F S2048 .f32) (main_arg5 : FVec F S1024x2048 .f32) (main_arg6 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_v13 main_v16
-- ==== Kernel.lean ====
abbrev S8192x1024 : Shape := ⟨2, ![8192, 1024]⟩
abbrev S8192x2048 : Shape := ⟨2, ![8192, 2048]⟩
abbrev S2048x1024 : Shape := ⟨2, ![2048, 1024]⟩
abbrev S2048x2048 : Shape := ⟨2, ![2048, 2048]⟩
abbrev S2048 : Shape := ⟨1, ![2048]⟩
abbrev S1024x2048 : Shape := ⟨2, ![1024, 2048]⟩
abbrev S1024 : Shape := ⟨1, ![1024]⟩
abbrev S1x2048 : Shape := ⟨2, ![1, 2048]⟩
abbrev S1x1024 : Shape := ⟨2, ![1, 1024]⟩
abbrev S256x1024 : Shape := ⟨2, ![256, 1024]⟩
abbrev S256x2048 : Shape := ⟨2, ![256, 2048]⟩
abbrev S512x2048 : Shape := ⟨2, ![512, 2048]⟩

abbrev nBuf : Space → Nat
  | .hbm => 21
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S2048x1024, .f32⟩
  | .hbm, ⟨3, _⟩ => ⟨S2048x2048, .f32⟩
  | .hbm, ⟨4, _⟩ => ⟨S2048, .f32⟩
  | .hbm, ⟨5, _⟩ => ⟨S1024x2048, .f32⟩
  | .hbm, ⟨6, _⟩ => ⟨S1024, .f32⟩
  | .hbm, ⟨7, _⟩ => ⟨S1024x2048, .f32⟩
  | .hbm, ⟨8, _⟩ => ⟨S1024x2048, .bf16⟩
  | .hbm, ⟨9, _⟩ => ⟨S2048x2048, .f32⟩
  | .hbm, ⟨10, _⟩ => ⟨S2048x2048, .bf16⟩
  | .hbm, ⟨11, _⟩ => ⟨S2048x1024, .f32⟩
  | .hbm, ⟨12, _⟩ => ⟨S2048x1024, .bf16⟩
  | .hbm, ⟨13, _⟩ => ⟨S1x2048, .f32⟩
  | .hbm, ⟨14, _⟩ => ⟨S1x1024, .f32⟩
  | .hbm, ⟨15, _⟩ => ⟨S8192x1024, .f32⟩
  | .hbm, ⟨16, _⟩ => ⟨S8192x2048, .f32⟩
  | .hbm, ⟨17, _⟩ => ⟨S1x2048, .f32⟩
  | .hbm, ⟨18, _⟩ => ⟨S1x2048, .f32⟩
  | .hbm, ⟨19, _⟩ => ⟨S2048, .f32⟩
  | .hbm, ⟨20, _⟩ => ⟨S2048, .f32⟩
  | .local _ .vmem, ⟨0, _⟩ => ⟨S256x1024, .f32⟩
  | .local _ .vmem, ⟨1, _⟩ => ⟨S256x1024, .f32⟩
  | .local _ .vmem, ⟨2, _⟩ => ⟨S256x2048, .f32⟩
  | .local _ .vmem, ⟨3, _⟩ => ⟨S256x2048, .f32⟩
  | .local _ .vmem, ⟨4, _⟩ => ⟨S1024x2048, .bf16⟩
  | .local _ .vmem, ⟨5, _⟩ => ⟨S2048x2048, .bf16⟩
  | .local _ .vmem, ⟨6, _⟩ => ⟨S1x2048, .f32⟩
  | .local _ .vmem, ⟨7, _⟩ => ⟨S2048x1024, .bf16⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x2048, .f32⟩
  | .local _ .vmem, ⟨12, _⟩ => ⟨S256x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .f32⟩
  | .local _ .vmem, ⟨17, _⟩ => ⟨S1x2048, .f32⟩
  | .local _ .vmem, ⟨18, _⟩ => ⟨S1x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v9_0 : Ref sig .tc := ⟨.hbm, 17, rfl⟩
abbrev main_v9_1 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  transposes_S2048x1024_S1024x2048_1_0 : S2048x1024.Transposes [1, 0] S1024x2048
  bitsLt_bf16_f32 : FTy.bits .bf16 < FTy.bits .f32
  transposes_S2048x2048_S2048x2048_1_0 : S2048x2048.Transposes [1, 0] S2048x2048
  transposes_S1024x2048_S2048x1024_1_0 : S1024x2048.Transposes [1, 0] S2048x1024
  shapeCasts_S2048_S1x2048 : S2048.ShapeCasts S1x2048
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  inb_S256x2048_S256x2048_0_0 : ∀ a, (![0, 0] : Fin 2 → Nat) a + S256x2048.size a ≤ S256x2048.size a
  h_S256x2048 : 0 < S256x2048.numel
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  reduces_S512x2048_S2048 : S512x2048.Reduces [0] S2048
  natLt_1_32 : 1 < 32
  shapeCasts_S1x2048_S2048 : S1x2048.ShapeCasts S2048
  dot_S256x1024_S1024x2048_S256x2048_1_0_0_1_n_n_wf : DotDims.WF S256x1024 S1024x2048 S256x2048 [1] [0] [0] [1] [] []
  dot_S256x2048_S2048x2048_S256x2048_1_0_0_1_n_n_wf : DotDims.WF S256x2048 S2048x2048 S256x2048 [1] [0] [0] [1] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S8192x2048.size a
  hwx0_1 : ∀ i : grid0.Coords, EltTy.bits .f32 = 32 ∨ (Rect.block (s := S8192x2048) S256x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S1024x2048.size a
  hwx0_2 : ∀ i : grid0.Coords, EltTy.bits .bf16 = 32 ∨ (Rect.block (s := S1024x2048) S1024x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x1024.size a ≤ S2048x1024.size a
  hwx0_5 : ∀ i : grid0.Coords, EltTy.bits .bf16 = 32 ∨ (Rect.block (s := S2048x1024) S2048x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S8192x1024.size a
  hwx0_7 : ∀ i : grid0.Coords, EltTy.bits .f32 = 32 ∨ (Rect.block (s := S8192x1024) S256x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x2048.size a ≤ S8192x2048.size a
  hwx0_8 : ∀ i : grid0.Coords, EltTy.bits .f32 = 32 ∨ (Rect.block (s := S8192x2048) S256x2048.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S8192x2048.size a
  hwx1_0 : ∀ i : grid1.Coords, EltTy.bits .f32 = 32 ∨ (Rect.block (s := S8192x2048) S512x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S8192x2048.size a
  hwx1_1 : ∀ i : grid1.Coords, EltTy.bits .f32 = 32 ∨ (Rect.block (s := S8192x2048) S512x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x2048.size a ≤ S1x2048.size a
  hwx1_3 : ∀ i : grid1.Coords, EltTy.bits .f32 = 32 ∨ (Rect.block (s := S1x2048) S1x2048.size (cc1_transform_3 i) (hinb1_3 i)).WholeWords (EltTy.packing .f32)

variable [Facts₀]

def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S2048x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8_0) S256x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v8_1) S256x2048.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v8_1) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9_0) S1x2048.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9_1) S1x2048.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x1024 : Shape := ⟨2, ![8192, 1024]⟩
abbrev S8192x2048 : Shape := ⟨2, ![8192, 2048]⟩
abbrev S2048x1024 : Shape := ⟨2, ![2048, 1024]⟩
abbrev S2048x2048 : Shape := ⟨2, ![2048, 2048]⟩
abbrev S2048 : Shape := ⟨1, ![2048]⟩
abbrev S1024x2048 : Shape := ⟨2, ![1024, 2048]⟩
abbrev S1024 : Shape := ⟨1, ![1024]⟩
abbrev S1x2048 : Shape := ⟨2, ![1, 2048]⟩
abbrev S_ : Shape := ⟨0, ![]⟩
abbrev S1x1024 : Shape := ⟨2, ![1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S2048x1024, .f32⟩
  | .hbm, ⟨3, _⟩ => ⟨S2048x2048, .f32⟩
  | .hbm, ⟨4, _⟩ => ⟨S2048, .f32⟩
  | .hbm, ⟨5, _⟩ => ⟨S1024x2048, .f32⟩
  | .hbm, ⟨6, _⟩ => ⟨S1024, .f32⟩
  | .hbm, ⟨7, _⟩ => ⟨S1024x2048, .f32⟩
  | .hbm, ⟨8, _⟩ => ⟨S8192x2048, .f32⟩
  | .hbm, ⟨9, _⟩ => ⟨S2048x2048, .f32⟩
  | .hbm, ⟨10, _⟩ => ⟨S8192x2048, .f32⟩
  | .hbm, ⟨11, _⟩ => ⟨S8192x2048, .f32⟩
  | .hbm, ⟨12, _⟩ => ⟨S1x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S2048, .f32⟩
  | .hbm, ⟨21, _⟩ => ⟨S_, .f32⟩
  | .hbm, ⟨22, _⟩ => ⟨S2048, .f32⟩
  | .hbm, ⟨23, _⟩ => ⟨S2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .i1⟩
  | .hbm, ⟨28, _⟩ => ⟨S8192x2048, .f32⟩
  | .hbm, ⟨29, _⟩ => ⟨S_, .f32⟩
  | .hbm, ⟨30, _⟩ => ⟨S2048, .f32⟩
  | .hbm, ⟨31, _⟩ => ⟨S_, .f32⟩
  | .hbm, ⟨32, _⟩ => ⟨S2048, .f32⟩
  | .hbm, ⟨33, _⟩ => ⟨S2048, .f32⟩
  | .hbm, ⟨34, _⟩ => ⟨S2048x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_cst : Ref sig .tc := ⟨.hbm, 15, rfl⟩
abbrev main_call0_v0 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]

class Facts₀ : Prop where
  transposes_S2048x1024_S1024x2048_1_0 : S2048x1024.Transposes [1, 0] S1024x2048
  transposes_S2048x2048_S2048x2048_1_0 : S2048x2048.Transposes [1, 0] S2048x2048
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  bcast_S_S8192x2048 : S_.BroadcastsInDim S8192x2048 (![] : Fin 0 → Fin S8192x2048.rank)
  reducesTo_S8192x2048_S2048_d0 : S8192x2048.ReducesTo [0] S2048
  h_S_ : 0 < S_.numel
  bcast_S_S2048 : S_.BroadcastsInDim S2048 (![] : Fin 0 → Fin S2048.rank)
  transposes_S1024x2048_S2048x1024_1_0 : S1024x2048.Transposes [1, 0] S2048x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  dot_S8192x1024_S1024x2048_S8192x2048_1_0_0_1_n_n_wf : DotDims.WF S8192x1024 S1024x2048 S8192x2048 [1] [0] [0] [1] [] []
  dot_S8192x2048_S2048x2048_S8192x2048_1_0_0_1_n_n_wf : DotDims.WF S8192x2048 S2048x2048 S8192x2048 [1] [0] [0] [1] [] []
  dot_S8192x2048_S2048x1024_S8192x1024_1_0_0_1_n_n_wf : DotDims.WF S8192x2048 S2048x1024 S8192x1024 [1] [0] [0] [1] [] []

variable [Facts₀]

def dot_S8192x1024_S1024x2048_S8192x2048_1_0_0_1_n_n : DotDims S8192x1024 S1024x2048 S8192x2048 where
  lhsContracting := [1]
  rhsContracting := [0]
  lhsNonContracting := [0]
  rhsNonContracting := [1]
  lhsBatch := []
  rhsBatch := []
  wf := dot_S8192x1024_S1024x2048_S8192x2048_1_0_0_1_n_n_wf
def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf
def dot_S8192x2048_S2048x1024_S8192x1024_1_0_0_1_n_n : DotDims S8192x2048 S2048x1024 S8192x1024 where
  lhsContracting := [1]
  rhsContracting := [0]
  lhsNonContracting := [0]
  rhsNonContracting := [1]
  lhsBatch := []
  rhsBatch := []
  wf := dot_S8192x2048_S2048x1024_S8192x1024_1_0_0_1_n_n_wf

class Facts : Prop extends Facts₀ where

variable [Facts]
-- ==== Proof.WholeRun.lean ====
/-
  The idealized kernel's whole run with its four results named.

  The program is a chain of four segments: host operations (three transposes with their format changes, two
  reshapes), the cell kernel's pipeline, the statistics kernel's pipeline, and two closing reshapes. The frame
  theorem of this program already threads the contents of every unscoped buffer through the four segments, as
  a fold `W0 → W1 → W2 → W3 → W4` over the launch memory, and ends with every such buffer at `W4`; it then
  keeps only what it needs, that the arguments are unchanged. Here the same launch is read at the four result
  buffers as well, so the post names each result as `W4` at its buffer.
-/
import proofs.«168222_j50929722196184_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with each of the four result
    buffers at the last boundary's contents `W4` and every argument as launched. -/
theorem run : θ_run defs (onTc (τ := τ) (main (F := F))) ⟨m, fun _ => 0, ρ⟩ (fun r => ∀ c : Dev nD,
      r.2.mem ((c.tc : Thread nD τ).loc main_v8_0) = W4 m ρ c (Proc.devRef .tc main_v8_0)
      ∧ r.2.mem ((c.tc : Thread nD τ).loc main_v8_1) = W4 m ρ c (Proc.devRef .tc main_v8_1)
      ∧ r.2.mem ((c.tc : Thread nD τ).loc main_v10) = W4 m ρ c (Proc.devRef .tc main_v10)
      ∧ r.2.mem ((c.tc : Thread nD τ).loc main_v11) = W4 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v8_0 (by decide)),
       h c _ (mem_uc main_v8_1 (by decide)),
       h c _ (mem_uc main_v10 (by decide)),
       h c _ (mem_uc main_v11 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.Whole

end
-- ==== Proof.WholeFold.lean ====
/-
  The boundary contents of the idealized kernel's run, read at the buffers the value claim needs.

  `W1` (the cell kernel's entry) holds each weight matrix transposed so that the contracted axis comes first,
  then passed through the change of float format, and each bias reshaped to one row; the two batch arrays are
  still the arguments. `W2` (the statistics kernel's entry) holds at the hidden-state buffer what the cell
  kernel's pipeline leaves there, and the previous state is still the argument. `W4` (the end) holds the
  output projection and the hidden state as the cell kernel left them — neither later segment writes them —
  and each statistic as the one row the statistics kernel left, reshaped to a vector.
-/
import proofs.«168222_j50929722196184_1_alg».proof.Proof.Gen.KernelIdeal.Frame
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## The cell kernel's entry -/

theorem V1_arg0 (c : Dev nD) : V1 m ρ c main_arg0 = m ((c : Thread nD τ).loc main_arg0) := by
  show StableHlo.after hostOps0 (W0 m ρ c) (Proc.devRef .tc main_arg0) = _
  after_results <;> rfl

theorem V1_arg1 (c : Dev nD) : V1 m ρ c main_arg1 = m ((c : Thread nD τ).loc main_arg1) := by
  show StableHlo.after hostOps0 (W0 m ρ c) (Proc.devRef .tc main_arg1) = _
  after_results <;> rfl

/-- The first weight matrix, contracted axis first. -/
theorem V1_v1 (c : Dev nD) : V1 m ρ c main_v1
    = truncf .bf16 (transpose S1024x2048 [1, 0] (m ((c : Thread nD τ).loc main_arg2)) transposes_S2048x1024_S1024x2048_1_0) bitsLt_bf16_f32 := by
  show StableHlo.after hostOps0 (W0 m ρ c) (Proc.devRef .tc main_v1) = _
  after_results <;> rfl

/-- The recurrent weight matrix, contracted axis first. -/
theorem V1_v3 (c : Dev nD) : V1 m ρ c main_v3
    = truncf .bf16 (transpose S2048x2048 [1, 0] (m ((c : Thread nD τ).loc main_arg3)) transposes_S2048x2048_S2048x2048_1_0) bitsLt_bf16_f32 := by
  show StableHlo.after hostOps0 (W0 m ρ c) (Proc.devRef .tc main_v3) = _
  after_results <;> rfl

/-- The output weight matrix, contracted axis first. -/
theorem V1_v5 (c : Dev nD) : V1 m ρ c main_v5
    = truncf .bf16 (transpose S2048x1024 [1, 0] (m ((c : Thread nD τ).loc main_arg5)) transposes_S1024x2048_S2048x1024_1_0) bitsLt_bf16_f32 := by
  show StableHlo.after hostOps0 (W0 m ρ c) (Proc.devRef .tc main_v5) = _
  after_results <;> rfl

/-- The hidden bias as one row. -/
theorem V1_v6 (c : Dev nD) : V1 m ρ c main_v6
    = shapeCast S1x2048 (m ((c : Thread nD τ).loc main_arg4)) shapeCasts_S2048_S1x2048 := by
  show StableHlo.after hostOps0 (W0 m ρ c) (Proc.devRef .tc main_v6) = _
  after_results <;> rfl

/-- The output bias as one row. -/
theorem V1_v7 (c : Dev nD) : V1 m ρ c main_v7
    = shapeCast S1x1024 (m ((c : Thread nD τ).loc main_arg6)) shapeCasts_S1024_S1x1024 := by
  show StableHlo.after hostOps0 (W0 m ρ c) (Proc.devRef .tc main_v7) = _
  after_results <;> rfl

/-! ## The statistics kernel's entry -/

/-- The hidden state it reads is what the cell kernel's pipeline left. -/
theorem V2_v8_1 (c : Dev nD) : V2 m ρ c main_v8_1 = (dat0 (V1 m ρ) c).arrAt 8 cfg0.N :=
  W2_arr m ρ c 8

/-- The previous state it reads is the argument: the cell kernel only read it. -/
theorem V2_arg1 (c : Dev nD) : V2 m ρ c main_arg1 = m ((c : Thread nD τ).loc main_arg1) :=
  ((W2_arr m ρ c 1).trans (((dat0 (V1 m ρ) c).arrAt_in 1 rfl _).trans (A_eq0 (V1 m ρ) c 1))).trans (V1_arg1 m ρ c)

/-! ## The end -/

/-- The output projection: written by the cell kernel, touched by nothing after. -/
theorem W4_v8_0 (c : Dev nD) : W4 m ρ c (Proc.devRef .tc main_v8_0) = (dat0 (V1 m ρ) c).arrAt 7 cfg0.N :=
  calc W4 m ρ c (Proc.devRef .tc main_v8_0)
    _ = W3 m ρ c (Proc.devRef .tc main_v8_0) := by
          show StableHlo.after hostOps2 (W3 m ρ c) (Proc.devRef .tc main_v8_0) = _
          after_results <;> rfl
    _ = W2 m ρ c (Proc.devRef .tc main_v8_0) := W3_of_ne m ρ c main_v8_0 (by decide)
    _ = (dat0 (V1 m ρ) c).arrAt 7 cfg0.N := W2_arr m ρ c 7

/-- The hidden state: written by the cell kernel, only read by the statistics kernel. -/
theorem W4_v8_1 (c : Dev nD) : W4 m ρ c (Proc.devRef .tc main_v8_1) = (dat0 (V1 m ρ) c).arrAt 8 cfg0.N :=
  calc W4 m ρ c (Proc.devRef .tc main_v8_1)
    _ = W3 m ρ c (Proc.devRef .tc main_v8_1) := by
          show StableHlo.after hostOps2 (W3 m ρ c) (Proc.devRef .tc main_v8_1) = _
          after_results <;> rfl
    _ = W2 m ρ c (Proc.devRef .tc main_v8_1) :=
          (W3_arr m ρ c 0).trans (((dat1 (V2 m ρ) c).arrAt_in 0 rfl _).trans (A_eq1 (V2 m ρ) c 0))
    _ = (dat0 (V1 m ρ) c).arrAt 8 cfg0.N := W2_arr m ρ c 8

/-- The first statistic: the row the statistics kernel left, as a vector. -/
theorem W4_v10 (c : Dev nD) : W4 m ρ c (Proc.devRef .tc main_v10)
    = shapeCast S2048 ((dat1 (V2 m ρ) c).arrAt 2 cfg1.N) shapeCasts_S1x2048_S2048 := by
  rw [← W3_arr m ρ c 2]
  show StableHlo.after hostOps2 (W3 m ρ c) (Proc.devRef .tc main_v10) = _
  after_results <;> rfl

/-- The second statistic likewise. -/
theorem W4_v11 (c : Dev nD) : W4 m ρ c (Proc.devRef .tc main_v11)
    = shapeCast S2048 ((dat1 (V2 m ρ) c).arrAt 3 cfg1.N) shapeCasts_S1x2048_S2048 := by
  rw [← W3_arr m ρ c 3]
  show StableHlo.after hostOps2 (W3 m ρ c) (Proc.devRef .tc main_v11) = _
  after_results <;> rfl

end Cert.KernelIdeal.Whole

end
-- ==== Proof.Spec.lean ====
/-
  One step of a ReLU recurrent cell with two per-neuron batch statistics, stated on the extended reals
  as plain functions of the argument arrays, entry by entry.

  With x : 8192×1024, h : 8192×2048, and the three weight matrices already laid out with the contracted
  axis first (W₁ : 1024×2048, W₂ : 2048×2048, W₃ : 2048×1024):

    pre  b j = (Σₖ x[b,k]·W₁[k,j] + Σₖ h[b,k]·W₂[k,j]) + bias j
    hid  b j = max (pre b j) 0
    out  b o = Σₖ hid[b,k]·W₃[k,o] + bias' o
    meanAbs j   = (0 + Σ_b |hid b j|) / 8192
    fracAbove j = (0 + Σ_b [ |h[b,j]| > 0.1 ]) / 8192

  The float words (+0.0, 0.1, 8192.0) stay the words they are: the same word on both sides of an
  equation is never evaluated. Sums over the extended reals are sums in a commutative monoid, so
  regrouping a sum needs no finiteness.
-/
import Idealize.ShloMosaic.PureOps.Ideal
import Idealize.ShloMosaic.Lib.ValueIdx

noncomputable section

namespace Cert.Spec

open Idealize.ShloMosaic Idealize.ShloMosaic.ValueIdx

/-- A matrix of extended reals with literal extents. -/
abbrev Mat (n0 n1 : ℕ) : Type := (⟨2, ![n0, n1]⟩ : Shape).Idx → EReal

/-- The word of `+0.0`. -/
abbrev zeroW : EReal := FloatOps.ofBits (F := Ideal) .f32 0x00000000#32
/-- The word of `8192.0`, the batch size. -/
abbrev batchW : EReal := FloatOps.ofBits (F := Ideal) .f32 0x46000000#32
/-- The word of the threshold `0.1` (its nearest single-precision value). -/
abbrev threshW : EReal := FloatOps.ofBits (F := Ideal) .f32 0x3DCCCCCD#32

/-- Entry `(b, j)` of a matrix product `L · R`: the sum over the contracted axis. -/
def dot {M K N : ℕ} (L : Mat M K) (R : Mat K N) (b : Fin M) (j : Fin N) : EReal :=
  ∑ k : Fin K, L (ix2 b k) * R (ix2 k j)

/-- The pre-activation: both products, then the bias. -/
def pre (X : Mat 8192 1024) (H : Mat 8192 2048) (W1 : Mat 1024 2048) (W2 : Mat 2048 2048)
    (B : Fin 2048 → EReal) (b : Fin 8192) (j : Fin 2048) : EReal :=
  (dot X W1 b j + dot H W2 b j) + B j

/-- The new hidden state: the pre-activation clamped below at zero. -/
def hid (X : Mat 8192 1024) (H : Mat 8192 2048) (W1 : Mat 1024 2048) (W2 : Mat 2048 2048)
    (B : Fin 2048 → EReal) (b : Fin 8192) (j : Fin 2048) : EReal :=
  max (pre X H W1 W2 B b j) zeroW

/-- The output projection of a hidden state `Hn`. -/
def out (Hn : Fin 8192 → Fin 2048 → EReal) (W3 : Mat 2048 1024) (Bo : Fin 1024 → EReal)
    (b : Fin 8192) (o : Fin 1024) : EReal :=
  (∑ k : Fin 2048, Hn b k * W3 (ix2 k o)) + Bo o

/-- `|x|` on the extended reals. -/
def absE (x : EReal) : EReal := max x (-x)

/-- Neuron `j`'s mean absolute activation over the batch. -/
def meanAbs (Hn : Fin 8192 → Fin 2048 → EReal) (j : Fin 2048) : EReal :=
  Ideal.div (zeroW + ∑ r : Fin 8192, absE (Hn r j)) batchW

/-- `1` when `|x|` exceeds the threshold, else `0`: the comparison's bit read as an unsigned integer. -/
def above (x : EReal) : EReal :=
  FloatOps.uitofp (F := Ideal) .f32 (FloatOps.cmpf (F := Ideal) (φ := .f32) .ogt (absE x) threshW)

/-- Neuron `j`'s fraction of the batch whose previous state exceeds the threshold in absolute value. -/
def fracAbove (H : Mat 8192 2048) (j : Fin 2048) : EReal :=
  Ideal.div (zeroW + ∑ r : Fin 8192, above (H (ix2 r j))) batchW

end Cert.Spec

end
-- ==== Proof.RefSpec.lean ====
/-
  The reference's four results, read at an index, are the specification's functions of the arguments.

  The reference forms both products of the pre-activation against the transposed weights, adds them, adds the
  bias broadcast down the rows, clamps at zero, and from that hidden state takes the output projection and the
  mean absolute activation per neuron; from the previous state it takes the per-neuron fraction above the
  threshold. Each stage read at an index is one entry of one of its operands, or a sum over the contracted or
  reduced axis, so the composed term at an index is the specification with the transposed weights as its
  matrices and the bias read at its column.
-/
import proofs.«168222_j50929722196184_1_alg».proof.Proof.Gen.ReferenceIdeal.Read
import proofs.«168222_j50929722196184_1_alg».proof.Proof.Spec

noncomputable section

namespace Cert.ReferenceIdeal.RefValue

open Cert.ReferenceIdeal Cert.ReferenceIdeal.Read Idealize.ShloMosaic Idealize.ShloMosaic.ValueIdx

variable (x0 : (⟨S8192x1024, .f32⟩ : BufTy).Contents (Elt Ideal)) (x1 : (⟨S8192x2048, .f32⟩ : BufTy).Contents (Elt Ideal))
  (x2 : (⟨S2048x1024, .f32⟩ : BufTy).Contents (Elt Ideal)) (x3 : (⟨S2048x2048, .f32⟩ : BufTy).Contents (Elt Ideal))
  (x4 : (⟨S2048, .f32⟩ : BufTy).Contents (Elt Ideal)) (x5 : (⟨S1024x2048, .f32⟩ : BufTy).Contents (Elt Ideal))
  (x6 : (⟨S1024, .f32⟩ : BufTy).Contents (Elt Ideal))

/-- The hidden state of the arguments, by coordinates: the specification at the transposed weights. -/
def hidOf (b : Fin 8192) (j : Fin 2048) : EReal :=
  Spec.hid x0 x1 (val_main_v0 (F := Ideal) x2) (val_main_v2 (F := Ideal) x3) (fun q => x4 (ix1 q)) b j

theorem hid_eq (i : S8192x2048.Idx) :
    val_main_v8 (F := Ideal) x0 x1 x2 x3 x4 i = hidOf x0 x1 x2 x3 x4 ⟨(i 0).val, (i 0).isLt⟩ ⟨(i 1).val, (i 1).isLt⟩ := by
  have e1 : ∀ k, lidx_main_v1 i k = ix2 (⟨(i 0).val, (i 0).isLt⟩ : Fin 8192) k := fun k =>
    funext fun a => Fin.ext (by match a with | ⟨0, _⟩ => rfl | ⟨1, _⟩ => rfl)
  have e2 : ∀ k, ridx_main_v1 i k = ix2 k (⟨(i 1).val, (i 1).isLt⟩ : Fin 2048) := fun k =>
    funext fun a => Fin.ext (by match a with | ⟨0, _⟩ => rfl | ⟨1, _⟩ => rfl)
  have e3 : ∀ k, lidx_main_v3 i k = ix2 (⟨(i 0).val, (i 0).isLt⟩ : Fin 8192) k := fun k =>
    funext fun a => Fin.ext (by match a with | ⟨0, _⟩ => rfl | ⟨1, _⟩ => rfl)
  have e4 : ∀ k, ridx_main_v3 i k = ix2 k (⟨(i 1).val, (i 1).isLt⟩ : Fin 2048) := fun k =>
    funext fun a => Fin.ext (by match a with | ⟨0, _⟩ => rfl | ⟨1, _⟩ => rfl)
  have e5 : idx_main_v5 (idx_main_v6 i) = ix1 (⟨(i 1).val, (i 1).isLt⟩ : Fin 2048) :=
    funext fun a => Fin.ext (by match a with | ⟨0, _⟩ => rfl)
  rw [val_main_v8_apply, val_main_v7_apply, val_main_v4_apply, val_main_v1_apply, val_main_v3_apply,
    val_main_v6_apply, val_main_v5_apply, val_main_call0_v0_apply, val_main_call0_cst_apply]
  simp only [e1, e2, e3, e4, e5]
  rfl

/-- The output projection of the arguments, by coordinates. -/
def outOf (b : Fin 8192) (o : Fin 1024) : EReal :=
  Spec.out (hidOf x0 x1 x2 x3 x4) (val_main_v20 (F := Ideal) x5) (fun q => x6 (ix1 q)) b o

theorem out_eq (i : S8192x1024.Idx) :
    val_main_v24 (F := Ideal) x0 x1 x2 x3 x4 x5 x6 i
      = outOf x0 x1 x2 x3 x4 x5 x6 ⟨(i 0).val, (i 0).isLt⟩ ⟨(i 1).val, (i 1).isLt⟩ := by
  have e2 : ∀ k, ridx_main_v21 i k = ix2 k (⟨(i 1).val, (i 1).isLt⟩ : Fin 1024) := fun k =>
    funext fun a => Fin.ext (by match a with | ⟨0, _⟩ => rfl | ⟨1, _⟩ => rfl)
  have e5 : idx_main_v22 (idx_main_v23 i) = ix1 (⟨(i 1).val, (i 1).isLt⟩ : Fin 1024) :=
    funext fun a => Fin.ext (by match a with | ⟨0, _⟩ => rfl)
  rw [val_main_v24_apply, val_main_v21_apply, val_main_v23_apply, val_main_v22_apply]
  simp only [e2, e5, hid_eq]
  rfl

/-- Neuron `j`'s mean absolute activation of the arguments. -/
def meanAbsOf (j : Fin 2048) : EReal := Spec.meanAbs (hidOf x0 x1 x2 x3 x4) j

theorem meanAbs_eq (i : S2048.Idx) :
    val_main_v12 (F := Ideal) x0 x1 x2 x3 x4 i = meanAbsOf x0 x1 x2 x3 x4 ⟨(i 0).val, (i 0).isLt⟩ := by
  rw [val_main_v12_apply, val_main_v10_apply, val_main_v11_apply, val_main_cst_0_apply, val_main_cst_apply]
  simp only [val_main_v9_apply, hid_eq]
  rfl

theorem fracAbove_eq (i : S2048.Idx) :
    val_main_v19 (F := Ideal) x1 i = Spec.fracAbove x1 ⟨(i 0).val, (i 0).isLt⟩ := by
  have e : ∀ k, idx_main_v17 i k = ix2 k (⟨(i 0).val, (i 0).isLt⟩ : Fin 2048) := fun k =>
    funext fun a => Fin.ext (by match a with | ⟨0, _⟩ => rfl | ⟨1, _⟩ => rfl)
  rw [val_main_v19_apply, val_main_v17_apply, val_main_v18_apply, val_main_cst_3_apply, val_main_cst_2_apply]
  simp only [val_main_v16_apply, val_main_v15_apply, val_main_v13_apply, val_main_v14_apply, val_main_cst_1_apply, e]
  rfl

end Cert.ReferenceIdeal.RefValue

end
-- ==== Proof.KernelSpec.lean ====
/-
  The idealized kernel's four results as the specification's functions of the arguments.

  Given what each pipeline leaves in its output arrays as a function of its entry contents — the cell kernel's
  hidden state and output projection, the statistics kernel's two rows — the boundary contents of the whole run
  turn those into functions of the arguments: the cell kernel enters with the weights transposed (the change
  of float format is the identity on the extended reals) and the biases as single rows, so its results are the
  specification at the transposed weights and the bias read at its column; the statistics kernel enters with
  that very hidden state and the untouched previous state; and the closing reshapes read each statistic's row
  at column `j` for entry `j`.
-/
import proofs.«168222_j50929722196184_1_alg».proof.Proof.WholeFold
import proofs.«168222_j50929722196184_1_alg».proof.Proof.RefSpec
import Idealize.ShloMosaic.Lib.ValueLayout
import Idealize.ShloMosaic.Lib.Pipeline.Value

set_option maxRecDepth 16384

noncomputable section

namespace Cert.KernelIdeal.Whole

open Cert.KernelIdeal Cert.KernelIdeal.Gen
open Idealize.ShloMosaic Idealize.ShloMosaic.TcCoe Idealize.SL.Sem Idealize.ShloMosaic.ValueIdx
open Cert.ReferenceIdeal.RefValue (hidOf outOf meanAbsOf)

/-- What the cell kernel's pipeline leaves at the hidden-state array, for any entry contents. -/
abbrev HidFact : Prop := ∀ (V : (c : Dev nD) → (b : Ref sig .tc) → Buf (Elt Ideal) ((c : Thread nD τ).loc b)) (c : Dev nD),
  (dat0 (F := Ideal) V c).arrAt 8 cfg0.N
    = fun i : S8192x2048.Idx => Spec.hid (V c main_arg0) (V c main_arg1) (V c main_v1) (V c main_v3)
        (fun j => V c main_v6 (ix2 (0 : Fin 1) j)) ⟨(i 0).val, (i 0).isLt⟩ ⟨(i 1).val, (i 1).isLt⟩

/-- What it leaves at the output array. -/
abbrev OutFact : Prop := ∀ (V : (c : Dev nD) → (b : Ref sig .tc) → Buf (Elt Ideal) ((c : Thread nD τ).loc b)) (c : Dev nD),
  (dat0 (F := Ideal) V c).arrAt 7 cfg0.N
    = fun i : S8192x1024.Idx => Spec.out (Spec.hid (V c main_arg0) (V c main_arg1) (V c main_v1) (V c main_v3)
        (fun j => V c main_v6 (ix2 (0 : Fin 1) j))) (V c main_v5) (fun o => V c main_v7 (ix2 (0 : Fin 1) o))
        ⟨(i 0).val, (i 0).isLt⟩ ⟨(i 1).val, (i 1).isLt⟩

/-- What the statistics kernel's pipeline leaves at its first row. -/
abbrev MeanAbsFact : Prop := ∀ (V : (c : Dev nD) → (b : Ref sig .tc) → Buf (Elt Ideal) ((c : Thread nD τ).loc b)) (c : Dev nD),
  (dat1 (F := Ideal) V c).arrAt 2 cfg1.N
    = fun y : S1x2048.Idx => Spec.meanAbs (fun r j => V c main_v8_1 (ix2 r j)) ⟨(y 1).val, (y 1).isLt⟩

/-- What it leaves at its second row. -/
abbrev FracAboveFact : Prop := ∀ (V : (c : Dev nD) → (b : Ref sig .tc) → Buf (Elt Ideal) ((c : Thread nD τ).loc b)) (c : Dev nD),
  (dat1 (F := Ideal) V c).arrAt 3 cfg1.N
    = fun y : S1x2048.Idx => Spec.fracAbove (V c main_arg1) ⟨(y 1).val, (y 1).isLt⟩

variable (m : (ℓ : Loc nD τ sig) → Buf (Elt Ideal) ℓ) (ρ : Dev nD → PrngReg)

/-- The cell kernel's hidden bias row at column `j` is the bias at `j`. -/
theorem bias_row (c : Dev nD) (j : Fin 2048) :
    V1 m ρ c main_v6 (ix2 (0 : Fin 1) j) = m ((c : Thread nD τ).loc main_arg4) (ix1 j) := by
  rw [V1_v6]; exact shapeCast_a_1a_apply _ _ _ _

/-- The output bias row at column `o` is the bias at `o`. -/
theorem obias_row (c : Dev nD) (o : Fin 1024) :
    V1 m ρ c main_v7 (ix2 (0 : Fin 1) o) = m ((c : Thread nD τ).loc main_arg6) (ix1 o) := by
  rw [V1_v7]; exact shapeCast_a_1a_apply _ _ _ _

/-- At the cell kernel's entry contents the specification's hidden state is the hidden state of the arguments. -/
theorem hid_V1 (c : Dev nD) :
    Spec.hid (V1 m ρ c main_arg0) (V1 m ρ c main_arg1) (V1 m ρ c main_v1) (V1 m ρ c main_v3)
        (fun j => V1 m ρ c main_v6 (ix2 (0 : Fin 1) j))
      = hidOf (m ((c : Thread nD τ).loc main_arg0)) (m ((c : Thread nD τ).loc main_arg1)) (m ((c : Thread nD τ).loc main_arg2))
          (m ((c : Thread nD τ).loc main_arg3)) (m ((c : Thread nD τ).loc main_arg4)) := by
  rw [V1_arg0, V1_arg1, V1_v1, V1_v3, funext (bias_row m ρ c)]
  rfl

/-- The hidden-state result is the hidden state of the arguments. -/
theorem hid_W4 (hHid : HidFact) (c : Dev nD) :
    W4 m ρ c (Proc.devRef .tc main_v8_1)
      = fun i : S8192x2048.Idx => hidOf (m ((c : Thread nD τ).loc main_arg0)) (m ((c : Thread nD τ).loc main_arg1))
          (m ((c : Thread nD τ).loc main_arg2)) (m ((c : Thread nD τ).loc main_arg3)) (m ((c : Thread nD τ).loc main_arg4))
          ⟨(i 0).val, (i 0).isLt⟩ ⟨(i 1).val, (i 1).isLt⟩ := by
  rw [W4_v8_1, hHid (V1 m ρ) c, hid_V1]

/-- The output result is the output projection of the arguments. -/
theorem out_W4 (hOut : OutFact) (c : Dev nD) :
    W4 m ρ c (Proc.devRef .tc main_v8_0)
      = fun i : S8192x1024.Idx => outOf (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6))
          ⟨(i 0).val, (i 0).isLt⟩ ⟨(i 1).val, (i 1).isLt⟩ := by
  rw [W4_v8_0, hOut (V1 m ρ) c, hid_V1, V1_v5, funext (obias_row m ρ c)]
  rfl

/-- The statistics kernel reads, at row `r` and column `j`, the hidden state of the arguments at `(r, j)`. -/
theorem hid_V2 (hHid : HidFact) (c : Dev nD) :
    (fun (r : Fin 8192) (j : Fin 2048) => V2 m ρ c main_v8_1 (ix2 r j))
      = hidOf (m ((c : Thread nD τ).loc main_arg0)) (m ((c : Thread nD τ).loc main_arg1))
          (m ((c : Thread nD τ).loc main_arg2)) (m ((c : Thread nD τ).loc main_arg3)) (m ((c : Thread nD τ).loc main_arg4)) := by
  funext r j
  rw [V2_v8_1, hHid (V1 m ρ) c, hid_V1]

/-- The first statistic is the mean absolute activation of the arguments. -/
theorem meanAbs_W4 (hHid : HidFact) (hMean : MeanAbsFact) (c : Dev nD) :
    W4 m ρ c (Proc.devRef .tc main_v10)
      = fun i : S2048.Idx => meanAbsOf (m ((c : Thread nD τ).loc main_arg0)) (m ((c : Thread nD τ).loc main_arg1))
          (m ((c : Thread nD τ).loc main_arg2)) (m ((c : Thread nD τ).loc main_arg3)) (m ((c : Thread nD τ).loc main_arg4))
          ⟨(i 0).val, (i 0).isLt⟩ := by
  rw [W4_v10, hMean (V2 m ρ) c, hid_V2 m ρ hHid c]
  funext i
  obtain ⟨q, rfl⟩ : ∃ q : Fin 2048, i = ix1 q := ⟨i 0, eq_ix1 i⟩
  rw [shapeCast_1a_a_apply]
  rfl

/-- The second statistic is the fraction above the threshold of the previous state. -/
theorem fracAbove_W4 (hFrac : FracAboveFact) (c : Dev nD) :
    W4 m ρ c (Proc.devRef .tc main_v11)
      = fun i : S2048.Idx => Spec.fracAbove (m ((c : Thread nD τ).loc main_arg1)) ⟨(i 0).val, (i 0).isLt⟩ := by
  rw [W4_v11, hFrac (V2 m ρ) c, V2_arg1]
  funext i
  obtain ⟨q, rfl⟩ : ∃ q : Fin 2048, i = ix1 q := ⟨i 0, eq_ix1 i⟩
  rw [shapeCast_1a_a_apply]

end Cert.KernelIdeal.Whole

end
-- ==== Proof.Claims.lean ====
/-
  The five claims, given what each pipeline leaves in its output arrays.

  The two kernel programs' frames are their generated frame theorems; the reference has no kernel, and its frame
  is its run with the results dropped. The idealization rewrote nothing, so there is nothing to preserve. For
  the value claim both runs end with the same four functions of the arguments: the output projection, the
  hidden state, the mean absolute activation and the fraction above the threshold, each the specification
  at the transposed weights — on the kernel's side through the boundary contents of its four segments, on the
  reference's side by reading its composed term one stage at a time.
-/
import proofs.«168222_j50929722196184_1_alg».proof.Defs
import proofs.«168222_j50929722196184_1_alg».proof.Proof.Gen.Kernel.Frame
import proofs.«168222_j50929722196184_1_alg».proof.Proof.Gen.Pre_finite_inputs
import proofs.«168222_j50929722196184_1_alg».proof.Proof.WholeRun
import proofs.«168222_j50929722196184_1_alg».proof.Proof.KernelSpec

set_option maxRecDepth 16384

noncomputable section

namespace Cert.Proof.Claims

open Idealize.ShloMosaic Idealize.ShloMosaic.TcCoe Idealize.SL.Sem
open Cert.KernelIdeal.Whole (HidFact OutFact MeanAbsFact FracAboveFact)
open Cert.ReferenceIdeal.RefValue (hidOf outOf meanAbsOf)

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2.2.2) (Cert.ReferenceIdeal.Value.run (F := Ideal) m ρ)

theorem preserves : Cert.preserves_Kernel_KernelIdeal := trivial

/-- Both idealized programs, from memories that agree on the arguments, end with the four results at the same
    functions of the arguments. -/
theorem algebraic (hHid : HidFact) (hOut : OutFact) (hMean : MeanAbsFact) (hFrac : FracAboveFact) :
    Cert.algebraic_KernelIdeal_ReferenceIdeal := by
  intro m ρ m' ρ' _ hagree
  refine ⟨
    fun c => fun i : Cert.KernelIdeal.S8192x1024.Idx => outOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) ⟨(i 0).val, (i 0).isLt⟩ ⟨(i 1).val, (i 1).isLt⟩,
    fun c => fun i : Cert.KernelIdeal.S8192x2048.Idx => hidOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) ⟨(i 0).val, (i 0).isLt⟩ ⟨(i 1).val, (i 1).isLt⟩,
    fun c => fun i : Cert.KernelIdeal.S2048.Idx => meanAbsOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) ⟨(i 0).val, (i 0).isLt⟩,
    fun c => fun i : Cert.KernelIdeal.S2048.Idx => Spec.fracAbove (m ((c.tc : Thread Cert.KernelIdeal.nD Cert.KernelIdeal.τ).loc Cert.KernelIdeal.main_arg1)) ⟨(i 0).val, (i 0).isLt⟩,
    ?_, ?_⟩
  · exact (θ_run Cert.KernelIdeal.defs _ _).mono (fun r h c =>
      ⟨(h c).1.trans (Cert.KernelIdeal.Whole.out_W4 m ρ hOut c),
       (h c).2.1.trans (Cert.KernelIdeal.Whole.hid_W4 m ρ hHid c),
       (h c).2.2.1.trans (Cert.KernelIdeal.Whole.meanAbs_W4 m ρ hHid hMean c),
       (h c).2.2.2.1.trans (Cert.KernelIdeal.Whole.fracAbove_W4 m ρ hFrac c),
       (h c).2.2.2.2⟩) (Cert.KernelIdeal.Whole.run (F := Ideal) m ρ)
  · refine (θ_run Cert.ReferenceIdeal.defs _ _).mono (fun r h c => ⟨?_, ?_, ?_, ?_, (h c).2.2.2.2⟩)
      (Cert.ReferenceIdeal.Value.run (F := Ideal) m' ρ')
    · refine (h c).1.trans ?_
      rw [(hagree c).1, (hagree c).2.1, (hagree c).2.2.1, (hagree c).2.2.2.1, (hagree c).2.2.2.2.1,
        (hagree c).2.2.2.2.2.1, (hagree c).2.2.2.2.2.2]
      exact funext fun i => Cert.ReferenceIdeal.RefValue.out_eq _ _ _ _ _ _ _ i
    · refine (h c).2.1.trans ?_
      rw [(hagree c).1, (hagree c).2.1, (hagree c).2.2.1, (hagree c).2.2.2.1, (hagree c).2.2.2.2.1]
      exact funext fun i => Cert.ReferenceIdeal.RefValue.hid_eq _ _ _ _ _ i
    · refine (h c).2.2.1.trans ?_
      rw [(hagree c).1, (hagree c).2.1, (hagree c).2.2.1, (hagree c).2.2.2.1, (hagree c).2.2.2.2.1]
      exact funext fun i => Cert.ReferenceIdeal.RefValue.meanAbs_eq _ _ _ _ _ i
    · refine (h c).2.2.2.1.trans ?_
      rw [(hagree c).2.1]
      exact funext fun i => Cert.ReferenceIdeal.RefValue.fracAbove_eq _ i

end Cert.Proof.Claims

end
-- ==== Proof.CellDots.lean ====
/-
  A matrix product into the zero accumulator, read at an entry.

  Each of the cell's three products contracts the left operand's column axis against the right
  operand's row axis, so entry (p, q) of the result is the sum over the contracted coordinate k of
  lhs[p, k] · rhs[k, q]. The contracted index set has a single axis and is re-indexed to `Fin K`;
  the operands' indices at (p, q) and k are then (p, k) and (k, q).
-/
import proofs.«168222_j50929722196184_1_alg».proof.Proof.Gen.KernelIdeal.Skeleton
import Idealize.ShloMosaic.Lib.ValueIdx
import Idealize.ShloMosaic.PureOps.Ideal.Laws

noncomputable section

namespace Cert.KernelIdeal.CellDots

open Idealize.ShloMosaic Idealize.ShloMosaic.ValueIdx Cert.KernelIdeal Cert.KernelIdeal.Gen

theorem dotX_l0 (i : S256x2048.Idx) (q : dot_S256x1024_S1024x2048_S256x2048_1_0_0_1_n_n.contr.Idx) : (dot_S256x1024_S1024x2048_S256x2048_1_0_0_1_n_n.lhsIdx i q 0).val = (i 0).val := by
  unfold DotDims.lhsIdx
  rw [dif_neg (show ¬(0 : Fin S256x1024.rank) ∈ dot_S256x1024_S1024x2048_S256x2048_1_0_0_1_n_n.lhsBatch by decide), dif_pos (show (0 : Fin S256x1024.rank) ∈ dot_S256x1024_S1024x2048_S256x2048_1_0_0_1_n_n.lhsNonContracting by decide)]
  rfl
theorem dotX_l1 (i : S256x2048.Idx) (q : dot_S256x1024_S1024x2048_S256x2048_1_0_0_1_n_n.contr.Idx) : (dot_S256x1024_S1024x2048_S256x2048_1_0_0_1_n_n.lhsIdx i q 1).val = (q ⟨0, by decide⟩).val :=
  dot_S256x1024_S1024x2048_S256x2048_1_0_0_1_n_n.lhsIdx_val_of_single rfl i q
theorem dotX_r0 (i : S256x2048.Idx) (q : dot_S256x1024_S1024x2048_S256x2048_1_0_0_1_n_n.contr.Idx) : (dot_S256x1024_S1024x2048_S256x2048_1_0_0_1_n_n.rhsIdx i q 0).val = (q ⟨0, by decide⟩).val :=
  dot_S256x1024_S1024x2048_S256x2048_1_0_0_1_n_n.rhsIdx_val_of_single rfl i q
theorem dotX_r1 (i : S256x2048.Idx) (q : dot_S256x1024_S1024x2048_S256x2048_1_0_0_1_n_n.contr.Idx) : (dot_S256x1024_S1024x2048_S256x2048_1_0_0_1_n_n.rhsIdx i q 1).val = (i 1).val := by
  unfold DotDims.rhsIdx
  rw [dif_neg (show ¬(1 : Fin S1024x2048.rank) ∈ dot_S256x1024_S1024x2048_S256x2048_1_0_0_1_n_n.rhsBatch by decide), dif_pos (show (1 : Fin S1024x2048.rank) ∈ dot_S256x1024_S1024x2048_S256x2048_1_0_0_1_n_n.rhsNonContracting by decide)]
  rfl

/-- [256,1024] · [1024,2048] into the zero accumulator, at entry (p, q): the sum over the contracted coordinate. -/
theorem dotX_apply {φ₁ φ₂ : FTy} (l : FVec Ideal S256x1024 φ₁) (r : FVec Ideal S1024x2048 φ₂) (p : Fin 256) (q : Fin 2048) :
    matmul dot_S256x1024_S1024x2048_S256x2048_1_0_0_1_n_n none l r (constant (F := Ideal) S256x2048 .f32 0x00000000#32) (ix2 p q)
      = ∑ k : Fin 1024, l (ix2 p k) * r (ix2 k q) := by
  show FloatOps.matmul dot_S256x1024_S1024x2048_S256x2048_1_0_0_1_n_n none l r (constant (F := Ideal) _ .f32 0x00000000#32) (ix2 p q) = _
  rw [Ideal.matmul_constant_zero_apply, ← Equiv.sum_comp (contrEquiv1 dot_S256x1024_S1024x2048_S256x2048_1_0_0_1_n_n 1024 rfl rfl).symm]
  refine Finset.sum_congr rfl fun k _ => ?_
  have hk := contrEquiv1_symm_val dot_S256x1024_S1024x2048_S256x2048_1_0_0_1_n_n 1024 rfl rfl k
  have el : dot_S256x1024_S1024x2048_S256x2048_1_0_0_1_n_n.lhsIdx (ix2 p q) ((contrEquiv1 dot_S256x1024_S1024x2048_S256x2048_1_0_0_1_n_n 1024 rfl rfl).symm k) = ix2 p k := funext fun a => Fin.ext (by
    match a with
    | ⟨0, _⟩ => exact dotX_l0 _ _
    | ⟨1, _⟩ => exact (dotX_l1 _ _).trans hk)
  have er : dot_S256x1024_S1024x2048_S256x2048_1_0_0_1_n_n.rhsIdx (ix2 p q) ((contrEquiv1 dot_S256x1024_S1024x2048_S256x2048_1_0_0_1_n_n 1024 rfl rfl).symm k) = ix2 k q := funext fun a => Fin.ext (by
    match a with
    | ⟨0, _⟩ => exact (dotX_r0 _ _).trans hk
    | ⟨1, _⟩ => exact dotX_r1 _ _)
  rw [el, er]

theorem dotH_l0 (i : S256x2048.Idx) (q : dot_S256x2048_S2048x2048_S256x2048_1_0_0_1_n_n.contr.Idx) : (dot_S256x2048_S2048x2048_S256x2048_1_0_0_1_n_n.lhsIdx i q 0).val = (i 0).val := by
  unfold DotDims.lhsIdx
  rw [dif_neg (show ¬(0 : Fin S256x2048.rank) ∈ dot_S256x2048_S2048x2048_S256x2048_1_0_0_1_n_n.lhsBatch by decide), dif_pos (show (0 : Fin S256x2048.rank) ∈ dot_S256x2048_S2048x2048_S256x2048_1_0_0_1_n_n.lhsNonContracting by decide)]
  rfl
theorem dotH_l1 (i : S256x2048.Idx) (q : dot_S256x2048_S2048x2048_S256x2048_1_0_0_1_n_n.contr.Idx) : (dot_S256x2048_S2048x2048_S256x2048_1_0_0_1_n_n.lhsIdx i q 1).val = (q ⟨0, by decide⟩).val :=
  dot_S256x2048_S2048x2048_S256x2048_1_0_0_1_n_n.lhsIdx_val_of_single rfl i q
theorem dotH_r0 (i : S256x2048.Idx) (q : dot_S256x2048_S2048x2048_S256x2048_1_0_0_1_n_n.contr.Idx) : (dot_S256x2048_S2048x2048_S256x2048_1_0_0_1_n_n.rhsIdx i q 0).val = (q ⟨0, by decide⟩).val :=
  dot_S256x2048_S2048x2048_S256x2048_1_0_0_1_n_n.rhsIdx_val_of_single rfl i q
theorem dotH_r1 (i : S256x2048.Idx) (q : dot_S256x2048_S2048x2048_S256x2048_1_0_0_1_n_n.contr.Idx) : (dot_S256x2048_S2048x2048_S256x2048_1_0_0_1_n_n.rhsIdx i q 1).val = (i 1).val := by
  unfold DotDims.rhsIdx
  rw [dif_neg (show ¬(1 : Fin S2048x2048.rank) ∈ dot_S256x2048_S2048x2048_S256x2048_1_0_0_1_n_n.rhsBatch by decide), dif_pos (show (1 : Fin S2048x2048.rank) ∈ dot_S256x2048_S2048x2048_S256x2048_1_0_0_1_n_n.rhsNonContracting by decide)]
  rfl

/-- [256,2048] · [2048,2048] into the zero accumulator, at entry (p, q): the sum over the contracted coordinate. -/
theorem dotH_apply {φ₁ φ₂ : FTy} (l : FVec Ideal S256x2048 φ₁) (r : FVec Ideal S2048x2048 φ₂) (p : Fin 256) (q : Fin 2048) :
    matmul dot_S256x2048_S2048x2048_S256x2048_1_0_0_1_n_n none l r (constant (F := Ideal) S256x2048 .f32 0x00000000#32) (ix2 p q)
      = ∑ k : Fin 2048, l (ix2 p k) * r (ix2 k q) := by
  show FloatOps.matmul dot_S256x2048_S2048x2048_S256x2048_1_0_0_1_n_n none l r (constant (F := Ideal) _ .f32 0x00000000#32) (ix2 p q) = _
  rw [Ideal.matmul_constant_zero_apply, ← Equiv.sum_comp (contrEquiv1 dot_S256x2048_S2048x2048_S256x2048_1_0_0_1_n_n 2048 rfl rfl).symm]
  refine Finset.sum_congr rfl fun k _ => ?_
  have hk := contrEquiv1_symm_val dot_S256x2048_S2048x2048_S256x2048_1_0_0_1_n_n 2048 rfl rfl k
  have el : dot_S256x2048_S2048x2048_S256x2048_1_0_0_1_n_n.lhsIdx (ix2 p q) ((contrEquiv1 dot_S256x2048_S2048x2048_S256x2048_1_0_0_1_n_n 2048 rfl rfl).symm k) = ix2 p k := funext fun a => Fin.ext (by
    match a with
    | ⟨0, _⟩ => exact dotH_l0 _ _
    | ⟨1, _⟩ => exact (dotH_l1 _ _).trans hk)
  have er : dot_S256x2048_S2048x2048_S256x2048_1_0_0_1_n_n.rhsIdx (ix2 p q) ((contrEquiv1 dot_S256x2048_S2048x2048_S256x2048_1_0_0_1_n_n 2048 rfl rfl).symm k) = ix2 k q := funext fun a => Fin.ext (by
    match a with
    | ⟨0, _⟩ => exact (dotH_r0 _ _).trans hk
    | ⟨1, _⟩ => exact dotH_r1 _ _)
  rw [el, er]

theorem dotO_l0 (i : S256x1024.Idx) (q : dot_S256x2048_S2048x1024_S256x1024_1_0_0_1_n_n.contr.Idx) : (dot_S256x2048_S2048x1024_S256x1024_1_0_0_1_n_n.lhsIdx i q 0).val = (i 0).val := by
  unfold DotDims.lhsIdx
  rw [dif_neg (show ¬(0 : Fin S256x2048.rank) ∈ dot_S256x2048_S2048x1024_S256x1024_1_0_0_1_n_n.lhsBatch by decide), dif_pos (show (0 : Fin S256x2048.rank) ∈ dot_S256x2048_S2048x1024_S256x1024_1_0_0_1_n_n.lhsNonContracting by decide)]
  rfl
theorem dotO_l1 (i : S256x1024.Idx) (q : dot_S256x2048_S2048x1024_S256x1024_1_0_0_1_n_n.contr.Idx) : (dot_S256x2048_S2048x1024_S256x1024_1_0_0_1_n_n.lhsIdx i q 1).val = (q ⟨0, by decide⟩).val :=
  dot_S256x2048_S2048x1024_S256x1024_1_0_0_1_n_n.lhsIdx_val_of_single rfl i q
theorem dotO_r0 (i : S256x1024.Idx) (q : dot_S256x2048_S2048x1024_S256x1024_1_0_0_1_n_n.contr.Idx) : (dot_S256x2048_S2048x1024_S256x1024_1_0_0_1_n_n.rhsIdx i q 0).val = (q ⟨0, by decide⟩).val :=
  dot_S256x2048_S2048x1024_S256x1024_1_0_0_1_n_n.rhsIdx_val_of_single rfl i q
theorem dotO_r1 (i : S256x1024.Idx) (q : dot_S256x2048_S2048x1024_S256x1024_1_0_0_1_n_n.contr.Idx) : (dot_S256x2048_S2048x1024_S256x1024_1_0_0_1_n_n.rhsIdx i q 1).val = (i 1).val := by
  unfold DotDims.rhsIdx
  rw [dif_neg (show ¬(1 : Fin S2048x1024.rank) ∈ dot_S256x2048_S2048x1024_S256x1024_1_0_0_1_n_n.rhsBatch by decide), dif_pos (show (1 : Fin S2048x1024.rank) ∈ dot_S256x2048_S2048x1024_S256x1024_1_0_0_1_n_n.rhsNonContracting by decide)]
  rfl

/-- [256,2048] · [2048,1024] into the zero accumulator, at entry (p, q): the sum over the contracted coordinate. -/
theorem dotO_apply {φ₁ φ₂ : FTy} (l : FVec Ideal S256x2048 φ₁) (r : FVec Ideal S2048x1024 φ₂) (p : Fin 256) (q : Fin 1024) :
    matmul dot_S256x2048_S2048x1024_S256x1024_1_0_0_1_n_n none l r (constant (F := Ideal) S256x1024 .f32 0x00000000#32) (ix2 p q)
      = ∑ k : Fin 2048, l (ix2 p k) * r (ix2 k q) := by
  show FloatOps.matmul dot_S256x2048_S2048x1024_S256x1024_1_0_0_1_n_n none l r (constant (F := Ideal) _ .f32 0x00000000#32) (ix2 p q) = _
  rw [Ideal.matmul_constant_zero_apply, ← Equiv.sum_comp (contrEquiv1 dot_S256x2048_S2048x1024_S256x1024_1_0_0_1_n_n 2048 rfl rfl).symm]
  refine Finset.sum_congr rfl fun k _ => ?_
  have hk := contrEquiv1_symm_val dot_S256x2048_S2048x1024_S256x1024_1_0_0_1_n_n 2048 rfl rfl k
  have el : dot_S256x2048_S2048x1024_S256x1024_1_0_0_1_n_n.lhsIdx (ix2 p q) ((contrEquiv1 dot_S256x2048_S2048x1024_S256x1024_1_0_0_1_n_n 2048 rfl rfl).symm k) = ix2 p k := funext fun a => Fin.ext (by
    match a with
    | ⟨0, _⟩ => exact dotO_l0 _ _
    | ⟨1, _⟩ => exact (dotO_l1 _ _).trans hk)
  have er : dot_S256x2048_S2048x1024_S256x1024_1_0_0_1_n_n.rhsIdx (ix2 p q) ((contrEquiv1 dot_S256x2048_S2048x1024_S256x1024_1_0_0_1_n_n 2048 rfl rfl).symm k) = ix2 k q := funext fun a => Fin.ext (by
    match a with
    | ⟨0, _⟩ => exact (dotO_r0 _ _).trans hk
    | ⟨1, _⟩ => exact dotO_r1 _ _)
  rw [el, er]

end Cert.KernelIdeal.CellDots

end
-- ==== Proof.CellPayload.lean ====
/-
  The cell's two stored values, read at an entry.

  The first store holds, at row p and column q of the point's block,
      max ((Σₖ x[p,k]·W₁[k,q] + Σₖ h[p,k]·W₂[k,q]) + bias[q]) 0 ,
  the bias row being repeated down the rows; the second holds Σₖ hid[p,k]·W₃[k,o] + bias'[o] with
  the same hidden values of row p. A change of float format is the identity on the extended reals,
  and so is a reshape to the same shape. Both are stated for a block whose row p is row r of the
  whole arrays, so that they read directly as the specification at row r.
-/
import proofs.«168222_j50929722196184_1_alg».proof.Proof.CellDots
import proofs.«168222_j50929722196184_1_alg».proof.Proof.Spec
import Idealize.ShloMosaic.Lib.Pipeline.Value

noncomputable section

namespace Cert.KernelIdeal.CellPayload

open Idealize.ShloMosaic Idealize.ShloMosaic.ValueIdx Cert.KernelIdeal Cert.KernelIdeal.Gen Cert.KernelIdeal.CellDots

/-- A [1,2048] row repeated down 256 rows reads, at (p, q), the row's entry q. -/
theorem bcast2048_apply {α : Type} (x : S1x2048.Idx → α) (p : Fin 256) (q : Fin 2048) :
    broadcastTo S256x2048 x broadcasts_S1x2048_S256x2048 (ix2 p q) = x (ix2 (0 : Fin 1) q) :=
  broadcastTo_apply x broadcasts_S1x2048_S256x2048 (ix2 p q) (ix2 (0 : Fin 1) q) fun a => by
    match a with
    | ⟨0, _⟩ => rfl
    | ⟨1, _⟩ => rfl

/-- A [1,1024] row repeated down 256 rows reads, at (p, o), the row's entry o. -/
theorem bcast1024_apply {α : Type} (x : S1x1024.Idx → α) (p : Fin 256) (o : Fin 1024) :
    broadcastTo S256x1024 x broadcasts_S1x1024_S256x1024 (ix2 p o) = x (ix2 (0 : Fin 1) o) :=
  broadcastTo_apply x broadcasts_S1x1024_S256x1024 (ix2 p o) (ix2 (0 : Fin 1) o) fun a => by
    match a with
    | ⟨0, _⟩ => rfl
    | ⟨1, _⟩ => rfl

/-- The hidden-state store at (p, q), when row p of the two activation blocks is row r of the arrays. -/
theorem pay1_block (X : Spec.Mat 8192 1024) (H : Spec.Mat 8192 2048) (W1 : Spec.Mat 1024 2048) (W2 : Spec.Mat 2048 2048)
    (Bm : Spec.Mat 1 2048)
    (v0 : Vec Ideal S256x1024 .f32) (v2 : Vec Ideal S256x2048 .f32) (v4 : Vec Ideal S1024x2048 .bf16)
    (v7 : Vec Ideal S2048x2048 .bf16) (v11 : Vec Ideal S1x2048 .f32) (r : Fin 8192) (p : Fin 256)
    (h0 : ∀ k : Fin 1024, v0 (ix2 p k) = X (ix2 r k)) (h2 : ∀ k : Fin 2048, v2 (ix2 p k) = H (ix2 r k))
    (h4 : ∀ (k : Fin 1024) (q : Fin 2048), v4 (ix2 k q) = W1 (ix2 k q))
    (h7 : ∀ (k : Fin 2048) (q : Fin 2048), v7 (ix2 k q) = W2 (ix2 k q))
    (h11 : ∀ q : Fin 2048, v11 (ix2 (0 : Fin 1) q) = Bm (ix2 (0 : Fin 1) q)) (q : Fin 2048) :
    k0_pay1 (F := Ideal) v0 v2 v4 v7 v11 (ix2 p q)
      = Spec.hid X H W1 W2 (fun j => Bm (ix2 (0 : Fin 1) j)) r q := by
  unfold k0_pay1
  simp only [maximumf_apply, addf_apply, broadcast_apply, shapeCast_self]
  rw [dotX_apply, dotH_apply, bcast2048_apply]
  simp only [truncf_apply, h0, h2, h4, h7, h11]
  rfl

/-- The output store at (p, o), when row p of the two activation blocks is row r of the arrays: the
    product of the SAME hidden values of row r with the output weights, then the output bias. -/
theorem pay2_block (X : Spec.Mat 8192 1024) (H : Spec.Mat 8192 2048) (W1 : Spec.Mat 1024 2048) (W2 : Spec.Mat 2048 2048)
    (Bm : Spec.Mat 1 2048) (W3 : Spec.Mat 2048 1024) (Bo : Spec.Mat 1 1024)
    (v0 : Vec Ideal S256x1024 .f32) (v2 : Vec Ideal S256x2048 .f32) (v4 : Vec Ideal S1024x2048 .bf16)
    (v7 : Vec Ideal S2048x2048 .bf16) (v11 : Vec Ideal S1x2048 .f32) (v19 : Vec Ideal S2048x1024 .bf16)
    (v22 : Vec Ideal S1x1024 .f32) (r : Fin 8192) (p : Fin 256)
    (h0 : ∀ k : Fin 1024, v0 (ix2 p k) = X (ix2 r k)) (h2 : ∀ k : Fin 2048, v2 (ix2 p k) = H (ix2 r k))
    (h4 : ∀ (k : Fin 1024) (q : Fin 2048), v4 (ix2 k q) = W1 (ix2 k q))
    (h7 : ∀ (k : Fin 2048) (q : Fin 2048), v7 (ix2 k q) = W2 (ix2 k q))
    (h11 : ∀ q : Fin 2048, v11 (ix2 (0 : Fin 1) q) = Bm (ix2 (0 : Fin 1) q))
    (h19 : ∀ (k : Fin 2048) (o : Fin 1024), v19 (ix2 k o) = W3 (ix2 k o))
    (h22 : ∀ o : Fin 1024, v22 (ix2 (0 : Fin 1) o) = Bo (ix2 (0 : Fin 1) o)) (o : Fin 1024) :
    k0_pay2 (F := Ideal) v0 v2 v4 v7 v11 v19 v22 (ix2 p o)
      = Spec.out (Spec.hid X H W1 W2 (fun j => Bm (ix2 (0 : Fin 1) j))) W3 (fun o => Bo (ix2 (0 : Fin 1) o)) r o := by
  unfold k0_pay2
  simp only [addf_apply, shapeCast_self]
  rw [dotO_apply, bcast1024_apply]
  simp only [truncf_apply, h19, h22, pay1_block X H W1 W2 Bm v0 v2 v4 v7 v11 r p h0 h2 h4 h7 h11]
  rfl

end Cert.KernelIdeal.CellPayload

end
-- ==== Proof.CellBlocks.lean ====
/-
  The cell's input blocks as parts of the arrays.

  The two activation windows move down the rows with the grid: at point t their block is rows
  256·t … 256·t + 255 of the array, all columns. The five parameter windows (three weight matrices
  and two bias rows) have a constant block index 0 and a block as large as the array, so their block
  at every point is the whole array. An element of a block sits in its array, on each axis, at the
  block index times the block's extent plus its coordinate inside the block.
-/
import proofs.«168222_j50929722196184_1_alg».proof.Proof.Gen.KernelIdeal.Frame
import proofs.«168222_j50929722196184_1_alg».proof.Proof.Spec
import Idealize.ShloMosaic.Lib.Pipeline.Value
import Idealize.ShloMosaic.Lib.ValueIdx

noncomputable section

namespace Cert.KernelIdeal.CellBlocks

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-- The printed index maps over the grid's 32 points: the activation windows and the two output
    windows are at row block t, column block 0; the parameter windows are at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

/-- Row p of the input block at point t is row 256·t + p of the input array. -/
theorem blkX_apply (c : Dev nD) (t : Fin cfg0.N) (p : Fin 256) (k : Fin 1024) (r : Fin 8192) (hr : r.val = 256 * t.val + p.val) :
    (iblk0 (F := Ideal) V c 0 t : Vec Ideal S256x1024 .f32) (ix2 p k) = (V c main_arg0 : Spec.Mat 8192 1024) (ix2 r k) := by
  obtain ⟨⟨e0, e1⟩, -⟩ := idx_facts t
  unfold iblk0
  rw [View.read_apply]
  show V c main_arg0 _ = V c main_arg0 _
  refine congrArg (V c main_arg0) (funext fun a => Fin.ext ?_)
  match a with
  | ⟨0, _⟩ => show win0_0.index t (0 : Fin 2) * 256 + 1 * p.val = r.val; rw [e0, hr]; omega
  | ⟨1, _⟩ => show win0_0.index t (1 : Fin 2) * 1024 + 1 * k.val = k.val; rw [e1]; omega

/-- Row p of the previous-state block at point t is row 256·t + p of the previous-state array. -/
theorem blkH_apply (c : Dev nD) (t : Fin cfg0.N) (p : Fin 256) (k : Fin 2048) (r : Fin 8192) (hr : r.val = 256 * t.val + p.val) :
    (iblk0 (F := Ideal) V c 1 t : Vec Ideal S256x2048 .f32) (ix2 p k) = (V c main_arg1 : Spec.Mat 8192 2048) (ix2 r k) := by
  obtain ⟨-, ⟨e0, e1⟩, -⟩ := idx_facts t
  unfold iblk0
  rw [View.read_apply]
  show V c main_arg1 _ = V c main_arg1 _
  refine congrArg (V c main_arg1) (funext fun a => Fin.ext ?_)
  match a with
  | ⟨0, _⟩ => show win0_1.index t (0 : Fin 2) * 256 + 1 * p.val = r.val; rw [e0, hr]; omega
  | ⟨1, _⟩ => show win0_1.index t (1 : Fin 2) * 2048 + 1 * k.val = k.val; rw [e1]; omega

/-- The input weights' block is the whole [1024,2048] matrix at every point. -/
theorem blkW1_apply (c : Dev nD) (t : Fin cfg0.N) (a : Fin 1024) (b : Fin 2048) :
    (iblk0 (F := Ideal) V c 2 t : Vec Ideal S1024x2048 .bf16) (ix2 a b) = (V c main_v1 : Spec.Mat 1024 2048) (ix2 a b) := by
  obtain ⟨-, -, ⟨e0, e1⟩, -⟩ := idx_facts t
  unfold iblk0
  rw [View.read_apply]
  show V c main_v1 _ = V c main_v1 _
  refine congrArg (V c main_v1) (funext fun d => Fin.ext ?_)
  match d with
  | ⟨0, _⟩ => show win0_2.index t (0 : Fin 2) * 1024 + 1 * a.val = a.val; rw [e0]; omega
  | ⟨1, _⟩ => show win0_2.index t (1 : Fin 2) * 2048 + 1 * b.val = b.val; rw [e1]; omega

/-- The recurrent weights' block is the whole [2048,2048] matrix at every point. -/
theorem blkW2_apply (c : Dev nD) (t : Fin cfg0.N) (a : Fin 2048) (b : Fin 2048) :
    (iblk0 (F := Ideal) V c 3 t : Vec Ideal S2048x2048 .bf16) (ix2 a b) = (V c main_v3 : Spec.Mat 2048 2048) (ix2 a b) := by
  obtain ⟨-, -, -, ⟨e0, e1⟩, -⟩ := idx_facts t
  unfold iblk0
  rw [View.read_apply]
  show V c main_v3 _ = V c main_v3 _
  refine congrArg (V c main_v3) (funext fun d => Fin.ext ?_)
  match d with
  | ⟨0, _⟩ => show win0_3.index t (0 : Fin 2) * 2048 + 1 * a.val = a.val; rw [e0]; omega
  | ⟨1, _⟩ => show win0_3.index t (1 : Fin 2) * 2048 + 1 * b.val = b.val; rw [e1]; omega

/-- The hidden bias's block is the whole [1,2048] row at every point. -/
theorem blkB_apply (c : Dev nD) (t : Fin cfg0.N) (a : Fin 1) (b : Fin 2048) :
    (iblk0 (F := Ideal) V c 4 t : Vec Ideal S1x2048 .f32) (ix2 a b) = (V c main_v6 : Spec.Mat 1 2048) (ix2 a b) := by
  obtain ⟨-, -, -, -, ⟨e0, e1⟩, -⟩ := idx_facts t
  unfold iblk0
  rw [View.read_apply]
  show V c main_v6 _ = V c main_v6 _
  refine congrArg (V c main_v6) (funext fun d => Fin.ext ?_)
  match d with
  | ⟨0, _⟩ => show win0_4.index t (0 : Fin 2) * 1 + 1 * a.val = a.val; rw [e0]; omega
  | ⟨1, _⟩ => show win0_4.index t (1 : Fin 2) * 2048 + 1 * b.val = b.val; rw [e1]; omega

/-- The output weights' block is the whole [2048,1024] matrix at every point. -/
theorem blkW3_apply (c : Dev nD) (t : Fin cfg0.N) (a : Fin 2048) (b : Fin 1024) :
    (iblk0 (F := Ideal) V c 5 t : Vec Ideal S2048x1024 .bf16) (ix2 a b) = (V c main_v5 : Spec.Mat 2048 1024) (ix2 a b) := by
  obtain ⟨-, -, -, -, -, ⟨e0, e1⟩, -⟩ := idx_facts t
  unfold iblk0
  rw [View.read_apply]
  show V c main_v5 _ = V c main_v5 _
  refine congrArg (V c main_v5) (funext fun d => Fin.ext ?_)
  match d with
  | ⟨0, _⟩ => show win0_5.index t (0 : Fin 2) * 2048 + 1 * a.val = a.val; rw [e0]; omega
  | ⟨1, _⟩ => show win0_5.index t (1 : Fin 2) * 1024 + 1 * b.val = b.val; rw [e1]; omega

/-- The output bias's block is the whole [1,1024] row at every point. -/
theorem blkBo_apply (c : Dev nD) (t : Fin cfg0.N) (a : Fin 1) (b : Fin 1024) :
    (iblk0 (F := Ideal) V c 6 t : Vec Ideal S1x1024 .f32) (ix2 a b) = (V c main_v7 : Spec.Mat 1 1024) (ix2 a b) := by
  obtain ⟨-, -, -, -, -, -, ⟨e0, e1⟩, -⟩ := idx_facts t
  unfold iblk0
  rw [View.read_apply]
  show V c main_v7 _ = V c main_v7 _
  refine congrArg (V c main_v7) (funext fun d => Fin.ext ?_)
  match d with
  | ⟨0, _⟩ => show win0_6.index t (0 : Fin 2) * 1 + 1 * a.val = a.val; rw [e0]; omega
  | ⟨1, _⟩ => show win0_6.index t (1 : Fin 2) * 1024 + 1 * b.val = b.val; rw [e1]; omega

end Cert.KernelIdeal.CellBlocks

end
-- ==== Proof.CellValue.lean ====
/-
  The recurrent cell's two result arrays, entry by entry.

  At grid point t the cell reads rows 256·t … 256·t + 255 of the input and of the previous state and
  the whole of the three weight matrices and two bias rows, and writes the same rows of the new
  hidden state, hid = max ((x·W₁ + h·W₂) + bias) 0, and of the output, hid·W₃ + bias'. Row 256·t + p
  of either result depends only on row 256·t + p of the two activations, and all 2048 hidden values of
  that row are in the block, so the block written at point t is the specification's rows
  256·t … 256·t + 255. Every point writes its block back, the blocks of distinct points are distinct
  row ranges, and row b lies in the block of point b / 256: the blocks cover the arrays.
-/
import proofs.«168222_j50929722196184_1_alg».proof.Proof.CellPayload
import proofs.«168222_j50929722196184_1_alg».proof.Proof.CellBlocks

noncomputable section

namespace Cert.KernelIdeal.CellValue

open Idealize.ShloMosaic Idealize.ShloMosaic.TcCoe Idealize.SL.Sem Cert.KernelIdeal Cert.KernelIdeal.Gen Idealize.ShloMosaic.ValueIdx
open Cert.KernelIdeal.CellPayload Cert.KernelIdeal.CellBlocks

variable (V : (c : Dev nD) → (b : Ref sig .tc) → Buf (Elt Ideal) ((c : Thread nD τ).loc b))

theorem hz : (![0, 0] : Fin 2 → Nat) = fun _ => 0 := funext fun a => by fin_cases a <;> rfl

/-- The new hidden state as one function of the region-entry arrays. -/
abbrev hidArr (c : Dev nD) : S8192x2048.Idx → EReal :=
  fun i => Spec.hid (V c main_arg0) (V c main_arg1) (V c main_v1) (V c main_v3) (fun j => V c main_v6 (ix2 (0 : Fin 1) j)) ⟨(i 0).val, (i 0).isLt⟩ ⟨(i 1).val, (i 1).isLt⟩

/-- The output projection as one function of the region-entry arrays. -/
abbrev outArr (c : Dev nD) : S8192x1024.Idx → EReal :=
  fun i => Spec.out (Spec.hid (V c main_arg0) (V c main_arg1) (V c main_v1) (V c main_v3) (fun j => V c main_v6 (ix2 (0 : Fin 1) j))) (V c main_v5) (fun o => V c main_v7 (ix2 (0 : Fin 1) o))
    ⟨(i 0).val, (i 0).isLt⟩ ⟨(i 1).val, (i 1).isLt⟩

/-! ## The hidden state (window 8) -/

/-- The hidden-state store at entry y of point t's block is the specification at the array entry i that
    y sits at: row 256·t + y₀, column y₁. -/
theorem hid_block (c : Dev nD) (t : Fin cfg0.N) (y : S256x2048.Idx) (i : S8192x2048.Idx)
    (h0 : (i 0).val = 256 * t.val + (y 0).val) (h1 : (i 1).val = (y 1).val) :
    k0_pay1 (F := Ideal) (iblk0 V c 0 t) (iblk0 V c 1 t) (iblk0 V c 2 t) (iblk0 V c 3 t) (iblk0 V c 4 t) y = hidArr V c i := by
  obtain ⟨p, q, rfl⟩ : ∃ (p : Fin 256) (q : Fin 2048), y = ix2 p q := ⟨y 0, y 1, eq_ix2 y⟩
  have hq : q = (⟨(i 1).val, (i 1).isLt⟩ : Fin 2048) := Fin.ext h1.symm
  exact (pay1_block (V c main_arg0) (V c main_arg1) (V c main_v1) (V c main_v3) (V c main_v6)
      (iblk0 V c 0 t) (iblk0 V c 1 t) (iblk0 V c 2 t) (iblk0 V c 3 t) (iblk0 V c 4 t) ⟨(i 0).val, (i 0).isLt⟩ p
      (fun k => blkX_apply V c t p k ⟨(i 0).val, (i 0).isLt⟩ h0) (fun k => blkH_apply V c t p k ⟨(i 0).val, (i 0).isLt⟩ h0)
      (fun k q => blkW1_apply V c t k q) (fun k q => blkW2_apply V c t k q) (fun q => blkB_apply V c t 0 q) q).trans
    (congrArg (Spec.hid (V c main_arg0) (V c main_arg1) (V c main_v1) (V c main_v3) (fun j => V c main_v6 (ix2 (0 : Fin 1) j)) ⟨(i 0).val, (i 0).isLt⟩) hq)

/-- What point t writes back to the hidden-state array is block t of `hidArr`. -/
theorem hid_flushed (c : Dev nD) (t : Fin cfg0.N) :
    (dat0 (F := Ideal) V c).flushed 8 t = ((cfg0.win 8).blk t).view.read (Elt Ideal) (hidArr V c) := by
  show (cfg0.win 8).cut (grid0.coords t) ((dat0 V c).after 8 t) = _
  rw [after0_8]
  unfold out0_8
  rw [View.canon_unit_zero hz]
  simp only [View.ld_unit_zero (S := S256x1024) hz, View.ld_unit_zero (S := S256x2048) hz, View.ld_unit_zero (S := S1024x2048) hz,
    View.ld_unit_zero (S := S2048x2048) hz, View.ld_unit_zero (S := S1x2048) hz]
  obtain ⟨-, -, -, -, -, -, -, -, e0, e1⟩ := idx_facts t
  funext j
  rw [View.read_apply]
  refine hid_block V c t ((cfg0.win 8).xinj (grid0.coords t) j) (((cfg0.win 8).blk t).view.emb j) ?_ ?_
  · show win0_8.index t (0 : Fin 2) * 256 + 1 * (j 0).val = 256 * t.val + (j 0).val
    rw [e0]; omega
  · show win0_8.index t (1 : Fin 2) * 2048 + 1 * (j 1).val = (j 1).val
    rw [e1]; omega

/-- An entry of the hidden-state array is in point t's block iff each coordinate is in the block's range. -/
theorem mem_blk8 (t : Fin cfg0.N) (i : S8192x2048.Idx) :
    i ∈ ((cfg0.win 8).blk t).view.set ↔ ∀ a : Fin 2, win0_8.index t a * S256x2048.size a ≤ (i a).val ∧ (i a).val < win0_8.index t a * S256x2048.size a + S256x2048.size a := by
  show i ∈ ((View.whole main_v8_1).slice (win0_8.rect t)).set ↔ _
  rw [View.set_slice_whole, Rect.mem_set_unit]
  exact Iff.rfl

/-- Row b of the hidden-state array is written back by point b / 256. -/
theorem hid_cover (i : S8192x2048.Idx) :
    ∃ t : Fin cfg0.N, (cfg0.win 8).flush t = true ∧ i ∈ ((cfg0.win 8).blk t).view.set := by
  have hi0 : (i 0).val < 8192 := (i 0).isLt
  have hi1 : (i 1).val < 2048 := (i 1).isLt
  have hN : grid0.N = 32 := N_0
  obtain ⟨t, ht⟩ : ∃ t : Fin cfg0.N, t.val = (i 0).val / 256 := ⟨⟨(i 0).val / 256, by show _ < grid0.N; rw [hN]; omega⟩, rfl⟩
  obtain ⟨-, -, -, -, -, -, -, -, e0, e1⟩ := idx_facts t
  refine ⟨t, flush0_8 t, ?_⟩
  rw [mem_blk8]
  intro a
  match a with
  | ⟨0, _⟩ =>
    show win0_8.index t (0 : Fin 2) * 256 ≤ (i 0).val ∧ (i 0).val < win0_8.index t (0 : Fin 2) * 256 + 256
    rw [e0, ht]; omega
  | ⟨1, _⟩ =>
    show win0_8.index t (1 : Fin 2) * 2048 ≤ (i 1).val ∧ (i 1).val < win0_8.index t (1 : Fin 2) * 2048 + 2048
    rw [e1]; omega

/-- THE NEW HIDDEN STATE after the region, entry by entry. -/
theorem hid_arr (c : Dev nD) :
    (dat0 (F := Ideal) V c).arrAt 8 cfg0.N
      = fun i : S8192x2048.Idx => Spec.hid (V c main_arg0) (V c main_arg1) (V c main_v1) (V c main_v3) (fun j => V c main_v6 (ix2 (0 : Fin 1) j)) ⟨(i 0).val, (i 0).isLt⟩ ⟨(i 1).val, (i 1).isLt⟩ :=
  (dat0 (F := Ideal) V c).arrAt_eq_of_cover 8 (hidArr V c) (fun t _ => hid_flushed V c t) hid_cover

/-! ## The output projection (window 7) -/

/-- The output store at entry y of point t's block is the specification at the array entry i that y sits
    at: row 256·t + y₀, column y₁. -/
theorem out_block (c : Dev nD) (t : Fin cfg0.N) (y : S256x1024.Idx) (i : S8192x1024.Idx)
    (h0 : (i 0).val = 256 * t.val + (y 0).val) (h1 : (i 1).val = (y 1).val) :
    k0_pay2 (F := Ideal) (iblk0 V c 0 t) (iblk0 V c 1 t) (iblk0 V c 2 t) (iblk0 V c 3 t) (iblk0 V c 4 t) (iblk0 V c 5 t) (iblk0 V c 6 t) y = outArr V c i := by
  obtain ⟨p, o, rfl⟩ : ∃ (p : Fin 256) (o : Fin 1024), y = ix2 p o := ⟨y 0, y 1, eq_ix2 y⟩
  have ho : o = (⟨(i 1).val, (i 1).isLt⟩ : Fin 1024) := Fin.ext h1.symm
  exact (pay2_block (V c main_arg0) (V c main_arg1) (V c main_v1) (V c main_v3) (V c main_v6) (V c main_v5) (V c main_v7)
      (iblk0 V c 0 t) (iblk0 V c 1 t) (iblk0 V c 2 t) (iblk0 V c 3 t) (iblk0 V c 4 t) (iblk0 V c 5 t) (iblk0 V c 6 t) ⟨(i 0).val, (i 0).isLt⟩ p
      (fun k => blkX_apply V c t p k ⟨(i 0).val, (i 0).isLt⟩ h0) (fun k => blkH_apply V c t p k ⟨(i 0).val, (i 0).isLt⟩ h0)
      (fun k q => blkW1_apply V c t k q) (fun k q => blkW2_apply V c t k q) (fun q => blkB_apply V c t 0 q)
      (fun k o => blkW3_apply V c t k o) (fun o => blkBo_apply V c t 0 o) o).trans
    (congrArg (Spec.out (Spec.hid (V c main_arg0) (V c main_arg1) (V c main_v1) (V c main_v3) (fun j => V c main_v6 (ix2 (0 : Fin 1) j))) (V c main_v5) (fun o => V c main_v7 (ix2 (0 : Fin 1) o)) ⟨(i 0).val, (i 0).isLt⟩) ho)

/-- What point t writes back to the output array is block t of `outArr`. -/
theorem out_flushed (c : Dev nD) (t : Fin cfg0.N) :
    (dat0 (F := Ideal) V c).flushed 7 t = ((cfg0.win 7).blk t).view.read (Elt Ideal) (outArr V c) := by
  show (cfg0.win 7).cut (grid0.coords t) ((dat0 V c).after 7 t) = _
  rw [after0_7]
  unfold out0_7
  rw [View.canon_unit_zero hz]
  simp only [View.ld_unit_zero (S := S256x1024) hz, View.ld_unit_zero (S := S256x2048) hz, View.ld_unit_zero (S := S1024x2048) hz,
    View.ld_unit_zero (S := S2048x2048) hz, View.ld_unit_zero (S := S1x2048) hz, View.ld_unit_zero (S := S2048x1024) hz,
    View.ld_unit_zero (S := S1x1024) hz]
  obtain ⟨-, -, -, -, -, -, -, ⟨e0, e1⟩, -⟩ := idx_facts t
  funext j
  rw [View.read_apply]
  refine out_block V c t ((cfg0.win 7).xinj (grid0.coords t) j) (((cfg0.win 7).blk t).view.emb j) ?_ ?_
  · show win0_7.index t (0 : Fin 2) * 256 + 1 * (j 0).val = 256 * t.val + (j 0).val
    rw [e0]; omega
  · show win0_7.index t (1 : Fin 2) * 1024 + 1 * (j 1).val = (j 1).val
    rw [e1]; omega

/-- An entry of the output array is in point t's block iff each coordinate is in the block's range. -/
theorem mem_blk7 (t : Fin cfg0.N) (i : S8192x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v8_0).slice (win0_7.rect t)).set ↔ _
  rw [View.set_slice_whole, Rect.mem_set_unit]
  exact Iff.rfl

/-- Row b of the output array is written back by point b / 256. -/
theorem out_cover (i : S8192x1024.Idx) :
    ∃ t : Fin cfg0.N, (cfg0.win 7).flush t = true ∧ i ∈ ((cfg0.win 7).blk t).view.set := by
  have hi0 : (i 0).val < 8192 := (i 0).isLt
  have hi1 : (i 1).val < 1024 := (i 1).isLt
  have hN : grid0.N = 32 := N_0
  obtain ⟨t, ht⟩ : ∃ t : Fin cfg0.N, t.val = (i 0).val / 256 := ⟨⟨(i 0).val / 256, by show _ < grid0.N; rw [hN]; omega⟩, rfl⟩
  obtain ⟨-, -, -, -, -, -, -, ⟨e0, e1⟩, -⟩ := idx_facts t
  refine ⟨t, flush0_7 t, ?_⟩
  rw [mem_blk7]
  intro a
  match a with
  | ⟨0, _⟩ =>
    show win0_7.index t (0 : Fin 2) * 256 ≤ (i 0).val ∧ (i 0).val < win0_7.index t (0 : Fin 2) * 256 + 256
    rw [e0, ht]; omega
  | ⟨1, _⟩ =>
    show win0_7.index t (1 : Fin 2) * 1024 ≤ (i 1).val ∧ (i 1).val < win0_7.index t (1 : Fin 2) * 1024 + 1024
    rw [e1]; omega

/-- THE OUTPUT PROJECTION after the region, entry by entry. -/
theorem out_arr (c : Dev nD) :
    (dat0 (F := Ideal) V c).arrAt 7 cfg0.N
      = fun i : S8192x1024.Idx => Spec.out (Spec.hid (V c main_arg0) (V c main_arg1) (V c main_v1) (V c main_v3) (fun j => V c main_v6 (ix2 (0 : Fin 1) j))) (V c main_v5) (fun o => V c main_v7 (ix2 (0 : Fin 1) o))
          ⟨(i 0).val, (i 0).isLt⟩ ⟨(i 1).val, (i 1).isLt⟩ :=
  (dat0 (F := Ideal) V c).arrAt_eq_of_cover 7 (outArr V c) (fun t _ => out_flushed V c t) out_cover

end Cert.KernelIdeal.CellValue

end
-- ==== Proof.StatsPieces.lean ====
/-
  What each control case of the statistics body leaves in the two accumulator rows, as a pure term of
  the point's two input blocks and (after the first point) of the rows' running contents: every
  store of the body writes a whole row, so the last store's value is what the row holds, and a load
  after a store reads back the stored value.
-/
import proofs.«168222_j50929722196184_1_alg».proof.Proof.Gen.KernelIdeal.Frame
import Idealize.ShloMosaic.Lib.Pipeline.Value
import Idealize.ShloMosaic.Lib.Tactic

noncomputable section
open Idealize.ShloMosaic Idealize.ShloMosaic.TcCoe Idealize.SL.Sem
namespace Cert.KernelIdeal.StatsPieces
open Cert.KernelIdeal Cert.KernelIdeal.Gen
variable {F : FTy → Type} [FloatOps F]

/-- The zero offsets of a whole-block access, as a constant function. -/
theorem hz : (![0, 0] : Fin 2 → Nat) = fun _ => 0 := funext fun a => by fin_cases a <;> rfl

/-- First point, mean-absolute accumulator: the zero block is stored, read back, and the block's
    column sums of absolute values are added to it. -/
theorem out_A_2 (c : Dev nD) (i : grid1.Coords) (a1 : Memref sig .tc .vmem S512x2048 .f32) (h1 : a1.IsWhole) (a2 : Memref sig .tc .vmem S512x2048 .f32) (h2 : a2.IsWhole) (a3 : Memref sig .tc .vmem S1x2048 .f32) (h3 : a3.IsWhole) (a4 : Memref sig .tc .vmem S1x2048 .f32) (h4 : a4.IsWhole) (hc0 : cond1_0 i) (hc1 : ¬cond1_1 i) (x0 x1 : Vec F S512x2048 .f32) :
    out1_A_2 c i a1 h1 a2 h2 a3 h3 a4 h4 hc0 hc1 x0 x1 = k1_pay3 (k1_pay1 (F := F)) x0 := by
  unfold out1_A_2
  rw [View.read_writes_eq_canon _ _ _ (cover1_A_2 c i a1 h1 a2 h2 a3 h3 a4 h4 hc0 hc1 x0 x1)]
  unfold kernelRun1_A
  dsimp only
  sl_unfold_words
  rw [View.canon_cons_unit_zero (S := S1x2048) hz, View.readCov_unit_zero (S := S1x2048) _ hz]
  simp only [View.readAt_eq_ld, h1.read_unread, View.ld_unit_zero (S := S512x2048) hz]

/-- First point, threshold-count accumulator: the zero block, then the block's column counts. -/
theorem out_A_3 (c : Dev nD) (i : grid1.Coords) (a1 : Memref sig .tc .vmem S512x2048 .f32) (h1 : a1.IsWhole) (a2 : Memref sig .tc .vmem S512x2048 .f32) (h2 : a2.IsWhole) (a3 : Memref sig .tc .vmem S1x2048 .f32) (h3 : a3.IsWhole) (a4 : Memref sig .tc .vmem S1x2048 .f32) (h4 : a4.IsWhole) (hc0 : cond1_0 i) (hc1 : ¬cond1_1 i) (x0 x1 : Vec F S512x2048 .f32) :
    out1_A_3 c i a1 h1 a2 h2 a3 h3 a4 h4 hc0 hc1 x0 x1 = k1_pay4 (k1_pay2 (F := F)) x1 := by
  unfold out1_A_3
  rw [View.read_writes_eq_canon _ _ _ (cover1_A_3 c i a1 h1 a2 h2 a3 h3 a4 h4 hc0 hc1 x0 x1)]
  unfold kernelRun1_A
  dsimp only
  sl_unfold_words
  rw [View.canon_cons_unit_zero (S := S1x2048) hz, View.readCov_unit_zero (S := S1x2048) _ hz]
  simp only [View.readAt_eq_ld, h2.read_unread, View.ld_unit_zero (S := S512x2048) hz]

/-- A middle point, mean-absolute accumulator: the running contents plus the block's column sums. -/
theorem out_B_2 (c : Dev nD) (i : grid1.Coords) (a1 : Memref sig .tc .vmem S512x2048 .f32) (h1 : a1.IsWhole) (a2 : Memref sig .tc .vmem S512x2048 .f32) (h2 : a2.IsWhole) (a3 : Memref sig .tc .vmem S1x2048 .f32) (h3 : a3.IsWhole) (a4 : Memref sig .tc .vmem S1x2048 .f32) (h4 : a4.IsWhole) (hc0 : ¬cond1_0 i) (hc1 : ¬cond1_1 i) (x0 x1 : Vec F S512x2048 .f32)
    (xo2 xo3 : Vec F S1x2048 .f32) :
    out1_B_2 c i a1 h1 a2 h2 a3 h3 a4 h4 hc0 hc1 x0 x1 xo2 xo3 = k1_pay3 xo2 x0 := by
  unfold out1_B_2
  rw [View.read_writes_eq_canon _ _ _ (cover1_B_2 c i a1 h1 a2 h2 a3 h3 a4 h4 hc0 hc1 x0 x1 xo2 xo3)]
  unfold kernelRun1_B
  dsimp only
  sl_unfold_words
  rw [View.canon_unit_zero (S := S1x2048) hz]
  simp only [View.readAt_eq_ld, h1.read_unread, h3.read_unread, View.ld_unit_zero (S := S512x2048) hz,
    View.ld_unit_zero (S := S1x2048) hz]

/-- A middle point, threshold-count accumulator: the running contents plus the block's column counts. -/
theorem out_B_3 (c : Dev nD) (i : grid1.Coords) (a1 : Memref sig .tc .vmem S512x2048 .f32) (h1 : a1.IsWhole) (a2 : Memref sig .tc .vmem S512x2048 .f32) (h2 : a2.IsWhole) (a3 : Memref sig .tc .vmem S1x2048 .f32) (h3 : a3.IsWhole) (a4 : Memref sig .tc .vmem S1x2048 .f32) (h4 : a4.IsWhole) (hc0 : ¬cond1_0 i) (hc1 : ¬cond1_1 i) (x0 x1 : Vec F S512x2048 .f32)
    (xo2 xo3 : Vec F S1x2048 .f32) :
    out1_B_3 c i a1 h1 a2 h2 a3 h3 a4 h4 hc0 hc1 x0 x1 xo2 xo3 = k1_pay4 xo3 x1 := by
  unfold out1_B_3
  rw [View.read_writes_eq_canon _ _ _ (cover1_B_3 c i a1 h1 a2 h2 a3 h3 a4 h4 hc0 hc1 x0 x1 xo2 xo3)]
  unfold kernelRun1_B
  dsimp only
  sl_unfold_words
  rw [View.canon_unit_zero (S := S1x2048) hz]
  simp only [View.readAt_eq_ld, h2.read_unread, h4.read_unread, View.ld_unit_zero (S := S512x2048) hz,
    View.ld_unit_zero (S := S1x2048) hz]

/-- The last point, mean-absolute accumulator: the running contents plus the block's column sums,
    then the whole row scaled by the averaging word. -/
theorem out_C_2 (c : Dev nD) (i : grid1.Coords) (a1 : Memref sig .tc .vmem S512x2048 .f32) (h1 : a1.IsWhole) (a2 : Memref sig .tc .vmem S512x2048 .f32) (h2 : a2.IsWhole) (a3 : Memref sig .tc .vmem S1x2048 .f32) (h3 : a3.IsWhole) (a4 : Memref sig .tc .vmem S1x2048 .f32) (h4 : a4.IsWhole) (hc0 : ¬cond1_0 i) (hc1 : cond1_1 i) (x0 x1 : Vec F S512x2048 .f32)
    (xo2 xo3 : Vec F S1x2048 .f32) :
    out1_C_2 c i a1 h1 a2 h2 a3 h3 a4 h4 hc0 hc1 x0 x1 xo2 xo3 = k1_pay5 (k1_pay3 xo2 x0) := by
  unfold out1_C_2
  rw [View.read_writes_eq_canon _ _ _ (cover1_C_2 c i a1 h1 a2 h2 a3 h3 a4 h4 hc0 hc1 x0 x1 xo2 xo3)]
  unfold kernelRun1_C
  dsimp only
  sl_unfold_words
  rw [View.canon_cons_unit_zero (S := S1x2048) hz, View.readCov_unit_zero (S := S1x2048) _ hz]
  simp only [View.readAt_eq_ld, h1.read_unread, h3.read_unread, View.ld_unit_zero (S := S512x2048) hz,
    View.ld_unit_zero (S := S1x2048) hz]

/-- The last point, threshold-count accumulator: likewise, scaled by the averaging word. -/
theorem out_C_3 (c : Dev nD) (i : grid1.Coords) (a1 : Memref sig .tc .vmem S512x2048 .f32) (h1 : a1.IsWhole) (a2 : Memref sig .tc .vmem S512x2048 .f32) (h2 : a2.IsWhole) (a3 : Memref sig .tc .vmem S1x2048 .f32) (h3 : a3.IsWhole) (a4 : Memref sig .tc .vmem S1x2048 .f32) (h4 : a4.IsWhole) (hc0 : ¬cond1_0 i) (hc1 : cond1_1 i) (x0 x1 : Vec F S512x2048 .f32)
    (xo2 xo3 : Vec F S1x2048 .f32) :
    out1_C_3 c i a1 h1 a2 h2 a3 h3 a4 h4 hc0 hc1 x0 x1 xo2 xo3 = k1_pay6 (k1_pay4 xo3 x1) := by
  unfold out1_C_3
  rw [View.read_writes_eq_canon _ _ _ (cover1_C_3 c i a1 h1 a2 h2 a3 h3 a4 h4 hc0 hc1 x0 x1 xo2 xo3)]
  unfold kernelRun1_C
  dsimp only
  sl_unfold_words
  rw [View.canon_cons_unit_zero (S := S1x2048) hz, View.readCov_unit_zero (S := S1x2048) _ hz]
  simp only [View.readAt_eq_ld, h2.read_unread, h4.read_unread, View.ld_unit_zero (S := S512x2048) hz,
    View.ld_unit_zero (S := S1x2048) hz]

end Cert.KernelIdeal.StatsPieces

end
-- ==== Proof.StatsBlocks.lean ====
/-
  The statistics region point by point, at the level of whole rows and blocks.

  Input window 0's block at grid point `t` is rows `512·t … 512·t+511` of the new hidden state,
  window 1's the same rows of the previous state. The two accumulator rows after a point are: at the
  first point the update applied to the zero row; at a middle point the update applied to what the
  point before left; at the last point that, scaled by the averaging word.
-/
import proofs.«168222_j50929722196184_1_alg».proof.Proof.Gen.KernelIdeal.Frame
import proofs.«168222_j50929722196184_1_alg».proof.Proof.StatsPieces
import Idealize.ShloMosaic.Lib.ValueIdx
import Idealize.ShloMosaic.Lib.Pipeline.Value

noncomputable section
open Idealize.ShloMosaic Idealize.ShloMosaic.TcCoe Idealize.SL.Sem Idealize.ShloMosaic.ValueIdx
namespace Cert.KernelIdeal.StatsBlocks
open Cert.KernelIdeal Cert.KernelIdeal.Gen Cert.KernelIdeal.StatsPieces

variable {F : FTy → Type} [FloatOps F]
variable (V : (c : Dev nD) → (b : Ref sig .tc) → Buf (Elt F) ((c : Thread nD τ).loc b))

/-- Both input windows step one block of 512 rows per grid point and stay on the one column block. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- Row `r` of a block at point `t` is batch row `512·t + r`. -/
abbrev row (t : Fin cfg1.N) (r : Fin 512) : Fin 8192 :=
  ⟨512 * t.val + r.val, by have := t.isLt; have hN : cfg1.N = 16 := N_1; have := r.isLt; omega⟩

/-- Window 0's block at point `t`, entry `(r, q)`: the new hidden state at `(512·t + r, q)`. -/
theorem iblk_0_apply (c : Dev nD) (t : Fin cfg1.N) (r : Fin 512) (q : Fin 2048) :
    (iblk1 V c 0 t : Vec F S512x2048 .f32) (ix2 r q) = V c main_v8_1 (ix2 (row t r) q) := by
  unfold iblk1
  rw [View.read_apply]
  show V c main_v8_1 (((cfg1.win 0).blk t).view.emb (ix2 r q)) = V c main_v8_1 (ix2 (row t r) q)
  refine congrArg (V c main_v8_1) ?_
  funext a
  apply Fin.ext
  match a with
  | ⟨0, _⟩ => show win1_0.index t (0 : Fin 2) * 512 + 1 * r.val = 512 * t.val + r.val; rw [(idx_facts t).1]; omega
  | ⟨1, _⟩ => show win1_0.index t (1 : Fin 2) * 2048 + 1 * q.val = q.val; rw [(idx_facts t).2.1]; omega

/-- Window 1's block at point `t`, entry `(r, q)`: the previous state at `(512·t + r, q)`. -/
theorem iblk_1_apply (c : Dev nD) (t : Fin cfg1.N) (r : Fin 512) (q : Fin 2048) :
    (iblk1 V c 1 t : Vec F S512x2048 .f32) (ix2 r q) = V c main_arg1 (ix2 (row t r) q) := by
  unfold iblk1
  rw [View.read_apply]
  show V c main_arg1 (((cfg1.win 1).blk t).view.emb (ix2 r q)) = V c main_arg1 (ix2 (row t r) q)
  refine congrArg (V c main_arg1) ?_
  funext a
  apply Fin.ext
  match a with
  | ⟨0, _⟩ => show win1_1.index t (0 : Fin 2) * 512 + 1 * r.val = 512 * t.val + r.val; rw [(idx_facts t).2.2.1]; omega
  | ⟨1, _⟩ => show win1_1.index t (1 : Fin 2) * 2048 + 1 * q.val = q.val; rw [(idx_facts t).2.2.2]; omega

/-- What the point before `t` left in the two rows. -/
abbrev prev (c : Dev nD) (t : Fin cfg1.N) : Vec F S1x2048 .f32 × Vec F S1x2048 .f32 :=
  outsAt1 V c (t.val - 1) (Nat.lt_of_le_of_lt (Nat.sub_le _ _) t.isLt)

/-- The first point: the update applied to the zero rows (first the mean-absolute row, then the threshold-count row). -/
theorem outsAt_first_1 (c : Dev nD) (t : Fin cfg1.N) (h0 : t.val % 16 = 0) (h1 : ¬t.val % 16 = 15) :
    (outsAt1 V c t.val t.isLt).1 = k1_pay3 (k1_pay1 (F := F)) (iblk1 V c 0 t) := by
  rw [outsAt1_A V c t h0 h1]
  dsimp only
  exact out_A_2 (F := F) c (grid1.coords t) (ms1_0 t) (hs1_0 t) (ms1_1 t) (hs1_1 t) (ms1_2 t) (hs1_2 t) (ms1_3 t) (hs1_3 t)
    ((hcond1_0 t).mpr h0) (fun h => h1 ((hcond1_1 t).mp h)) (iblk1 V c 0 t) (iblk1 V c 1 t)

theorem outsAt_first_2 (c : Dev nD) (t : Fin cfg1.N) (h0 : t.val % 16 = 0) (h1 : ¬t.val % 16 = 15) :
    (outsAt1 V c t.val t.isLt).2 = k1_pay4 (k1_pay2 (F := F)) (iblk1 V c 1 t) := by
  rw [outsAt1_A V c t h0 h1]
  dsimp only
  exact out_A_3 (F := F) c (grid1.coords t) (ms1_0 t) (hs1_0 t) (ms1_1 t) (hs1_1 t) (ms1_2 t) (hs1_2 t) (ms1_3 t) (hs1_3 t)
    ((hcond1_0 t).mpr h0) (fun h => h1 ((hcond1_1 t).mp h)) (iblk1 V c 0 t) (iblk1 V c 1 t)

/-- A middle point: the update applied to what the point before left. -/
theorem outsAt_middle_1 (c : Dev nD) (t : Fin cfg1.N) (h0 : ¬t.val % 16 = 0) (h1 : ¬t.val % 16 = 15) :
    (outsAt1 V c t.val t.isLt).1 = k1_pay3 (prev V c t).1 (iblk1 V c 0 t) := by
  rw [outsAt1_B V c t h0 h1]
  dsimp only
  exact out_B_2 (F := F) c (grid1.coords t) (ms1_0 t) (hs1_0 t) (ms1_1 t) (hs1_1 t) (ms1_2 t) (hs1_2 t) (ms1_3 t) (hs1_3 t)
    (fun h => h0 ((hcond1_0 t).mp h)) (fun h => h1 ((hcond1_1 t).mp h)) (iblk1 V c 0 t) (iblk1 V c 1 t) (prev V c t).1 (prev V c t).2

theorem outsAt_middle_2 (c : Dev nD) (t : Fin cfg1.N) (h0 : ¬t.val % 16 = 0) (h1 : ¬t.val % 16 = 15) :
    (outsAt1 V c t.val t.isLt).2 = k1_pay4 (prev V c t).2 (iblk1 V c 1 t) := by
  rw [outsAt1_B V c t h0 h1]
  dsimp only
  exact out_B_3 (F := F) c (grid1.coords t) (ms1_0 t) (hs1_0 t) (ms1_1 t) (hs1_1 t) (ms1_2 t) (hs1_2 t) (ms1_3 t) (hs1_3 t)
    (fun h => h0 ((hcond1_0 t).mp h)) (fun h => h1 ((hcond1_1 t).mp h)) (iblk1 V c 0 t) (iblk1 V c 1 t) (prev V c t).1 (prev V c t).2

/-- The last point: the update applied to what the point before left, then scaled. -/
theorem outsAt_last_1 (c : Dev nD) (t : Fin cfg1.N) (h0 : ¬t.val % 16 = 0) (h1 : t.val % 16 = 15) :
    (outsAt1 V c t.val t.isLt).1 = k1_pay5 (k1_pay3 (prev V c t).1 (iblk1 V c 0 t)) := by
  rw [outsAt1_C V c t h0 h1]
  dsimp only
  exact out_C_2 (F := F) c (grid1.coords t) (ms1_0 t) (hs1_0 t) (ms1_1 t) (hs1_1 t) (ms1_2 t) (hs1_2 t) (ms1_3 t) (hs1_3 t)
    (fun h => h0 ((hcond1_0 t).mp h)) ((hcond1_1 t).mpr h1) (iblk1 V c 0 t) (iblk1 V c 1 t) (prev V c t).1 (prev V c t).2

theorem outsAt_last_2 (c : Dev nD) (t : Fin cfg1.N) (h0 : ¬t.val % 16 = 0) (h1 : t.val % 16 = 15) :
    (outsAt1 V c t.val t.isLt).2 = k1_pay6 (k1_pay4 (prev V c t).2 (iblk1 V c 1 t)) := by
  rw [outsAt1_C V c t h0 h1]
  dsimp only
  exact out_C_3 (F := F) c (grid1.coords t) (ms1_0 t) (hs1_0 t) (ms1_1 t) (hs1_1 t) (ms1_2 t) (hs1_2 t) (ms1_3 t) (hs1_3 t)
    (fun h => h0 ((hcond1_0 t).mp h)) ((hcond1_1 t).mpr h1) (iblk1 V c 0 t) (iblk1 V c 1 t) (prev V c t).1 (prev V c t).2

end Cert.KernelIdeal.StatsBlocks

end
-- ==== Proof.StatsPay.lean ====
/-
  The statistics body's arithmetic read at one column `q` of the accumulator row, over the extended
  reals: a partial update adds to the row's running value the sum, over the block's 512 rows, of the
  absolute values (resp. of the threshold indicators) in that column; the final scaling multiplies the
  row by the averaging word; the reset row is the zero word.
-/
import proofs.«168222_j50929722196184_1_alg».proof.Proof.Gen.KernelIdeal.Skeleton
import proofs.«168222_j50929722196184_1_alg».proof.Proof.Spec
import Idealize.ShloMosaic.Lib.ValueIdx
import Idealize.ShloMosaic.Lib.Pipeline.Value
import Idealize.ShloMosaic.PureOps.Ideal.Laws

noncomputable section
open Idealize.ShloMosaic Idealize.ShloMosaic.ValueIdx
namespace Cert.KernelIdeal.StatsPay
open Cert.KernelIdeal Cert.KernelIdeal.Gen

/-- Row `r`, column `q` of a block is where the column reduction at `q` reads its `r`-th term. -/
theorem lift_eq (q : Fin 2048) (r : Fin 512) :
    reduces_S512x2048_S2048.lift (ix1 q) r = ix2 r q := by
  funext a
  apply Fin.ext
  match a with
  | ⟨0, _⟩ => rfl
  | ⟨1, _⟩ => rfl

/-- The one-row view of a length-2048 vector reads column `q` at `q`. -/
theorem row_cast_apply (v : S2048.Idx → EReal) (q : Fin 2048) :
    shapeCast S1x2048 v shapeCasts_S2048_S1x2048 (ix2 (0 : Fin 1) q) = v (ix1 q) :=
  shapeCast_apply v shapeCasts_S2048_S1x2048 (ix2 (0 : Fin 1) q) (ix1 q) (by
    rw [Shape.rowMajor_val_two, Shape.rowMajor_val_one]; show q.val = 0 * 2048 + q.val; omega)

/-- A column sum over the block's rows, read at column `q`. -/
theorem col_sum_apply (v : FVec Ideal S512x2048 .f32) (hφ : FKind.Formats .f32)
    (hacc : (0x00000000#32 : BitVec 32) = FKind.add.neutral .f32 hφ) (q : Fin 2048) :
    multiReduction .add [0] S2048 v 0x00000000#32 reduces_S512x2048_S2048 hφ hacc (ix1 q)
      = ∑ r : Fin 512, v (ix2 r q) := by
  refine (Ideal.multiReduction_add_single v 0x00000000#32 reduces_S512x2048_S2048 hφ hacc (ix1 q)).trans ?_
  show ∑ r : Fin 512, v (reduces_S512x2048_S2048.lift (ix1 q) r) = _
  exact Finset.sum_congr rfl fun r _ => congrArg v (lift_eq q r)

/-- The comparison's bit, widened and read as a signed integer, is the bit read unsigned: 0 or 1. -/
theorem sitofp_extui_bit (b : BitVec 1) :
    FloatOps.sitofp (F := Ideal) .f32 (b.setWidth 32) = FloatOps.uitofp (F := Ideal) .f32 b := by
  show (((b.setWidth 32).toInt : ℝ) : EReal) = ((b.toNat : ℝ) : EReal)
  rcases BitVec.eq_zero_or_eq_one b with h | h <;> subst h <;> norm_num

/-- The reset rows are the zero word. -/
theorem pay1_apply (q : Fin 2048) : k1_pay1 (F := Ideal) (ix2 (0 : Fin 1) q) = Spec.zeroW := rfl
theorem pay2_apply (q : Fin 2048) : k1_pay2 (F := Ideal) (ix2 (0 : Fin 1) q) = Spec.zeroW := rfl

/-- The mean-absolute update at column `q`: the running value plus the block's column sum of `|·|`. -/
theorem pay3_apply (a : Vec Ideal S1x2048 .f32) (x : Vec Ideal S512x2048 .f32) (q : Fin 2048) :
    k1_pay3 (F := Ideal) a x (ix2 (0 : Fin 1) q)
      = a (ix2 (0 : Fin 1) q) + ∑ r : Fin 512, Spec.absE (x (ix2 r q)) := by
  unfold k1_pay3
  simp only [addf_apply, shapeCast_self]
  refine congrArg (a (ix2 (0 : Fin 1) q) + ·) ?_
  refine (row_cast_apply _ q).trans ?_
  refine (col_sum_apply _ _ _ q).trans ?_
  rfl

/-- The threshold-count update at column `q`: the running value plus the block's column count. -/
theorem pay4_apply (a : Vec Ideal S1x2048 .f32) (x : Vec Ideal S512x2048 .f32) (q : Fin 2048) :
    k1_pay4 (F := Ideal) a x (ix2 (0 : Fin 1) q)
      = a (ix2 (0 : Fin 1) q) + ∑ r : Fin 512, Spec.above (x (ix2 r q)) := by
  unfold k1_pay4
  simp only [addf_apply, shapeCast_self]
  refine congrArg (a (ix2 (0 : Fin 1) q) + ·) ?_
  refine (row_cast_apply _ q).trans ?_
  refine (col_sum_apply _ _ _ q).trans ?_
  refine Finset.sum_congr rfl fun r _ => ?_
  exact sitofp_extui_bit _

/-- The final scaling at column `q`: the row's value times the averaging word. -/
theorem pay5_apply (a : Vec Ideal S1x2048 .f32) (q : Fin 2048) :
    k1_pay5 (F := Ideal) a (ix2 (0 : Fin 1) q)
      = a (ix2 (0 : Fin 1) q) * FloatOps.ofBits (F := Ideal) .f32 0x39000000#32 := by
  unfold k1_pay5
  simp only [mulf_apply, shapeCast_self]
  rfl

theorem pay6_apply (a : Vec Ideal S1x2048 .f32) (q : Fin 2048) :
    k1_pay6 (F := Ideal) a (ix2 (0 : Fin 1) q)
      = a (ix2 (0 : Fin 1) q) * FloatOps.ofBits (F := Ideal) .f32 0x39000000#32 := by
  unfold k1_pay6
  simp only [mulf_apply, shapeCast_self]
  rfl

end Cert.KernelIdeal.StatsPay

end
-- ==== Proof.StatsSum.lean ====
/-
  Regrouping a sum over the 8192 batch rows into 16 consecutive blocks of 512 rows, in any additive
  commutative monoid (the extended reals in particular: no finiteness is used).

  A function of the row is first extended by zero to all naturals, so that the rows seen up to a
  grid point form an initial segment `range (512·(n+1))`; one more block extends the segment by
  512 rows, and the full segment `range 8192` is the sum over every row.
-/
import Mathlib.Algebra.BigOperators.Fin

namespace Cert.KernelIdeal.StatsSum

open Finset

variable {M : Type*} [AddCommMonoid M]

/-- A function of the batch row, extended by zero beyond the last row. -/
def ext (g : Fin 8192 → M) (b : ℕ) : M := if h : b < 8192 then g ⟨b, h⟩ else 0

theorem ext_of_lt (g : Fin 8192 → M) (b : ℕ) (h : b < 8192) : ext g b = g ⟨b, h⟩ := dif_pos h

/-- The full initial segment is the sum over every row. -/
theorem sum_ext_all (g : Fin 8192 → M) : ∑ b ∈ range 8192, ext g b = ∑ b : Fin 8192, g b := by
  rw [Finset.sum_range]
  exact Finset.sum_congr rfl fun b _ => ext_of_lt g b.val b.isLt

/-- Block `t`'s 512 terms, given as a function `s` of the row inside the block, are the next
    512 terms of the extended function. -/
theorem block_sum (g : Fin 8192 → M) (t : ℕ) (ht : t < 16) (s : Fin 512 → M)
    (hs : ∀ r : Fin 512, s r = g ⟨512 * t + r.val, by have := r.isLt; omega⟩) :
    ∑ r : Fin 512, s r = ∑ r ∈ range 512, ext g (512 * t + r) := by
  rw [Finset.sum_range]
  refine Finset.sum_congr rfl fun r _ => ?_
  rw [hs r, ext_of_lt]

/-- The first block on top of the start value `z`. -/
theorem acc_zero (z : M) (G : ℕ → M) :
    z + ∑ r ∈ range 512, G (512 * 0 + r) = z + ∑ b ∈ range (512 * (0 + 1)), G b := by
  have e : ∀ r, G (512 * 0 + r) = G r := fun r => by rw [Nat.mul_zero, Nat.zero_add]
  simp only [e]

/-- One more block on top of the blocks up to point `n`. -/
theorem acc_step (z : M) (G : ℕ → M) (n : ℕ) :
    (z + ∑ b ∈ range (512 * (n + 1)), G b) + ∑ r ∈ range 512, G (512 * (n + 1) + r)
      = z + ∑ b ∈ range (512 * (n + 1 + 1)), G b := by
  rw [show 512 * (n + 1 + 1) = 512 * (n + 1) + 512 by omega, Finset.sum_range_add, add_assoc]

end Cert.KernelIdeal.StatsSum
-- ==== Proof.StatsConsts.lean ====
/-
  The two float words of the batch average, read as extended reals: the word 0x39000000 is
  2⁻¹³ = 1/8192 and the word 0x46000000 is 8192. Multiplying by the first is therefore dividing by
  the second, for every extended real, the infinities included.
-/
import Idealize.ShloMosaic.PureOps.Ideal

noncomputable section

namespace Cert.KernelIdeal.StatsConsts

open Idealize.ShloMosaic

/-- The word `0x46000000` denotes the real `8192`. -/
theorem ofBits_batch : Ideal.ofBits .f32 0x46000000#32 = ((8192 : ℝ) : EReal) := by
  simp [Ideal.ofBits, Ideal.ieee, -EReal.coe_mul]; norm_num

/-- The word `0x39000000` denotes the real `1/8192`. -/
theorem ofBits_invBatch : Ideal.ofBits .f32 0x39000000#32 = ((1 / 8192 : ℝ) : EReal) := by
  simp [Ideal.ofBits, Ideal.ieee, -EReal.coe_mul]; norm_num

/-- A product with `1/8192` is the quotient by `8192`, at every extended real. -/
theorem mul_invBatch (x : EReal) :
    x * FloatOps.ofBits (F := Ideal) .f32 0x39000000#32
      = Ideal.div x (FloatOps.ofBits (F := Ideal) .f32 0x46000000#32) := by
  show x * Ideal.ofBits .f32 0x39000000#32 = Ideal.div x (Ideal.ofBits .f32 0x46000000#32)
  rw [ofBits_batch, ofBits_invBatch, Ideal.div_coe (by norm_num : (8192 : ℝ) ≠ 0)]

end Cert.KernelIdeal.StatsConsts

end
-- ==== Proof.StatsAcc.lean ====
/-
  The accumulation across the grid, column by column, over the extended reals.

  After point `n < 15` column `q` of each accumulator row holds the zero word plus the sum, over batch
  rows `0 … 512·(n+1) − 1`, of the column's terms (`|·|` of the new hidden state, resp. the threshold
  indicator of the previous state): by induction on the point, one block of 512 rows at a time,
  using only associativity of `+`. After the last point the full sum is multiplied by the word of
  `1/8192`, which is division by the word of `8192`: the two batch statistics.
-/
import proofs.«168222_j50929722196184_1_alg».proof.Proof.Gen.KernelIdeal.Frame
import proofs.«168222_j50929722196184_1_alg».proof.Proof.StatsBlocks
import proofs.«168222_j50929722196184_1_alg».proof.Proof.StatsPay
import proofs.«168222_j50929722196184_1_alg».proof.Proof.StatsSum
import proofs.«168222_j50929722196184_1_alg».proof.Proof.StatsConsts
import proofs.«168222_j50929722196184_1_alg».proof.Proof.Spec

noncomputable section
open Idealize.ShloMosaic Idealize.ShloMosaic.TcCoe Idealize.SL.Sem Idealize.ShloMosaic.ValueIdx
namespace Cert.KernelIdeal.StatsAcc
open Cert.KernelIdeal Cert.KernelIdeal.Gen Cert.KernelIdeal.StatsBlocks Cert.KernelIdeal.StatsPay
open Cert.KernelIdeal.StatsSum Cert.KernelIdeal.StatsConsts Finset

variable (V : (c : Dev nD) → (b : Ref sig .tc) → Buf (Elt Ideal) ((c : Thread nD τ).loc b))

/-- Column `q` of `|new hidden state|`, as a function of the batch row. -/
def absCol (c : Dev nD) (q : Fin 2048) : Fin 8192 → EReal := fun b => Spec.absE (V c main_v8_1 (ix2 b q))

/-- Column `q` of the threshold indicator of the previous state, as a function of the batch row. -/
def aboveCol (c : Dev nD) (q : Fin 2048) : Fin 8192 → EReal := fun b => Spec.above (V c main_arg1 (ix2 b q))

theorem grid_lt (t : Fin cfg1.N) : t.val < 16 := lt_of_lt_of_eq t.isLt (show cfg1.N = 16 from N_1)

/-- Point `t`'s column sum of absolute values is the next 512 terms of the column. -/
theorem blockAbs (c : Dev nD) (t : Fin cfg1.N) (q : Fin 2048) :
    ∑ r : Fin 512, Spec.absE ((iblk1 V c 0 t : Vec Ideal S512x2048 .f32) (ix2 r q))
      = ∑ r ∈ range 512, ext (absCol V c q) (512 * t.val + r) :=
  block_sum (absCol V c q) t.val (grid_lt t) _ fun r => congrArg Spec.absE (iblk_0_apply V c t r q)

/-- Point `t`'s column count is the next 512 terms of the column. -/
theorem blockAbove (c : Dev nD) (t : Fin cfg1.N) (q : Fin 2048) :
    ∑ r : Fin 512, Spec.above ((iblk1 V c 1 t : Vec Ideal S512x2048 .f32) (ix2 r q))
      = ∑ r ∈ range 512, ext (aboveCol V c q) (512 * t.val + r) :=
  block_sum (aboveCol V c q) t.val (grid_lt t) _ fun r => congrArg Spec.above (iblk_1_apply V c t r q)

/-- The running sums after a point before the last one. -/
theorem partial_sums (c : Dev nD) : ∀ (n : ℕ) (h : n < cfg1.N), n < 15 → ∀ q : Fin 2048,
    (outsAt1 V c n h).1 (ix2 (0 : Fin 1) q) = Spec.zeroW + ∑ b ∈ range (512 * (n + 1)), ext (absCol V c q) b
    ∧ (outsAt1 V c n h).2 (ix2 (0 : Fin 1) q) = Spec.zeroW + ∑ b ∈ range (512 * (n + 1)), ext (aboveCol V c q) b
  | 0, h, _, q => by
    have e1 : (outsAt1 V c 0 h).1 = _ := outsAt_first_1 V c ⟨0, h⟩ (Nat.zero_mod 16) (by dsimp only; omega)
    have e2 : (outsAt1 V c 0 h).2 = _ := outsAt_first_2 V c ⟨0, h⟩ (Nat.zero_mod 16) (by dsimp only; omega)
    constructor
    · rw [e1]
      refine (pay3_apply (k1_pay1 (F := Ideal)) (iblk1 V c 0 ⟨0, h⟩) q).trans ?_
      refine (congrArg (Spec.zeroW + ·) (blockAbs V c ⟨0, h⟩ q)).trans ?_
      exact acc_zero _ _
    · rw [e2]
      refine (pay4_apply (k1_pay2 (F := Ideal)) (iblk1 V c 1 ⟨0, h⟩) q).trans ?_
      refine (congrArg (Spec.zeroW + ·) (blockAbove V c ⟨0, h⟩ q)).trans ?_
      exact acc_zero _ _
  | n + 1, h, h15, q => by
    have ih := partial_sums c n (Nat.lt_of_succ_lt h) (by omega) q
    have hB0 : ¬(⟨n + 1, h⟩ : Fin cfg1.N).val % 16 = 0 := by dsimp only; omega
    have hB1 : ¬(⟨n + 1, h⟩ : Fin cfg1.N).val % 16 = 15 := by dsimp only; omega
    have e1 : (outsAt1 V c (n + 1) h).1 = _ := outsAt_middle_1 V c ⟨n + 1, h⟩ hB0 hB1
    have e2 : (outsAt1 V c (n + 1) h).2 = _ := outsAt_middle_2 V c ⟨n + 1, h⟩ hB0 hB1
    have p1 : (prev V c ⟨n + 1, h⟩).1 (ix2 (0 : Fin 1) q) = _ := ih.1
    have p2 : (prev V c ⟨n + 1, h⟩).2 (ix2 (0 : Fin 1) q) = _ := ih.2
    constructor
    · rw [e1]
      refine (pay3_apply (prev V c ⟨n + 1, h⟩).1 (iblk1 V c 0 ⟨n + 1, h⟩) q).trans ?_
      rw [p1, blockAbs V c ⟨n + 1, h⟩ q]
      exact acc_step _ _ n
    · rw [e2]
      refine (pay4_apply (prev V c ⟨n + 1, h⟩).2 (iblk1 V c 1 ⟨n + 1, h⟩) q).trans ?_
      rw [p2, blockAbove V c ⟨n + 1, h⟩ q]
      exact acc_step _ _ n

/-- After the last point: the two batch statistics of column `q`. -/
theorem final_sums (c : Dev nD) (h : 15 < cfg1.N) (q : Fin 2048) :
    (outsAt1 V c 15 h).1 (ix2 (0 : Fin 1) q) = Spec.meanAbs (fun r j => V c main_v8_1 (ix2 r j)) q
    ∧ (outsAt1 V c 15 h).2 (ix2 (0 : Fin 1) q) = Spec.fracAbove (V c main_arg1) q := by
  have ih := partial_sums V c 14 (Nat.lt_of_succ_lt h) (by omega) q
  have hC0 : ¬(⟨15, h⟩ : Fin cfg1.N).val % 16 = 0 := by dsimp only; omega
  have hC1 : (⟨15, h⟩ : Fin cfg1.N).val % 16 = 15 := rfl
  have e1 : (outsAt1 V c 15 h).1 = _ := outsAt_last_1 V c ⟨15, h⟩ hC0 hC1
  have e2 : (outsAt1 V c 15 h).2 = _ := outsAt_last_2 V c ⟨15, h⟩ hC0 hC1
  have p1 : (prev V c ⟨15, h⟩).1 (ix2 (0 : Fin 1) q) = _ := ih.1
  have p2 : (prev V c ⟨15, h⟩).2 (ix2 (0 : Fin 1) q) = _ := ih.2
  constructor
  · rw [e1]
    refine (pay5_apply (k1_pay3 (prev V c ⟨15, h⟩).1 (iblk1 V c 0 ⟨15, h⟩)) q).trans ?_
    refine (mul_invBatch _).trans ?_
    unfold Spec.meanAbs
    refine congrArg (Ideal.div · Spec.batchW) ?_
    refine (pay3_apply (prev V c ⟨15, h⟩).1 (iblk1 V c 0 ⟨15, h⟩) q).trans ?_
    rw [p1, blockAbs V c ⟨15, h⟩ q]
    refine (acc_step _ _ 14).trans ?_
    exact congrArg (Spec.zeroW + ·) (sum_ext_all (absCol V c q))
  · rw [e2]
    refine (pay6_apply (k1_pay4 (prev V c ⟨15, h⟩).2 (iblk1 V c 1 ⟨15, h⟩)) q).trans ?_
    refine (mul_invBatch _).trans ?_
    unfold Spec.fracAbove
    refine congrArg (Ideal.div · Spec.batchW) ?_
    refine (pay4_apply (prev V c ⟨15, h⟩).2 (iblk1 V c 1 ⟨15, h⟩) q).trans ?_
    rw [p2, blockAbove V c ⟨15, h⟩ q]
    refine (acc_step _ _ 14).trans ?_
    exact congrArg (Spec.zeroW + ·) (sum_ext_all (aboveCol V c q))

end Cert.KernelIdeal.StatsAcc

end
-- ==== Proof.StatsValue.lean ====
/-
  The two result arrays of the statistics region, for any contents of the buffers when the region is
  entered: each is a single block of one row, at block index (0, 0), written back once, after the
  last grid point. What is written back is the accumulator row after that point, which column by
  column is the batch statistic: the mean absolute new hidden state, and the fraction of the batch
  whose previous state exceeds the threshold in absolute value.
-/
import proofs.«168222_j50929722196184_1_alg».proof.Proof.Gen.KernelIdeal.Frame
import proofs.«168222_j50929722196184_1_alg».proof.Proof.StatsAcc
import proofs.«168222_j50929722196184_1_alg».proof.Proof.Spec
import Idealize.ShloMosaic.Lib.ValueIdx
import Idealize.ShloMosaic.Lib.Pipeline.Value

noncomputable section
open Idealize.ShloMosaic Idealize.ShloMosaic.TcCoe Idealize.SL.Sem Cert.KernelIdeal Cert.KernelIdeal.Gen Idealize.ShloMosaic.ValueIdx
open Idealize.ShloMosaic.Pipeline (Dat)
namespace Cert.KernelIdeal.StatsValue
open Cert.KernelIdeal.StatsAcc

variable (V : (c : Dev nD) → (b : Ref sig .tc) → Buf (Elt Ideal) ((c : Thread nD τ).loc b))

/-- The row of mean absolute activations, as contents of the first result array. -/
abbrev meanRow (c : Dev nD) : Buf (Elt Ideal) ((c : Thread nD τ).loc main_v9_0) :=
  fun y : S1x2048.Idx => Spec.meanAbs (fun r j => V c main_v8_1 (ix2 r j)) ⟨(y 1).val, (y 1).isLt⟩

/-- The row of above-threshold fractions, as contents of the second result array. -/
abbrev fracRow (c : Dev nD) : Buf (Elt Ideal) ((c : Thread nD τ).loc main_v9_1) :=
  fun y : S1x2048.Idx => Spec.fracAbove (V c main_arg1) ⟨(y 1).val, (y 1).isLt⟩

/-- The accumulator rows after the last point are those two rows. -/
theorem last_1 (c : Dev nD) (h : 15 < cfg1.N) : (outsAt1 V c 15 h).1 = meanRow V c := by
  funext y
  obtain ⟨p, q, rfl⟩ : ∃ (p : Fin 1) (q : Fin 2048), y = ix2 p q := ⟨y 0, y 1, eq_ix2 y⟩
  obtain rfl : p = 0 := Subsingleton.elim _ _
  exact (final_sums V c h q).1

theorem last_2 (c : Dev nD) (h : 15 < cfg1.N) : (outsAt1 V c 15 h).2 = fracRow V c := by
  funext y
  obtain ⟨p, q, rfl⟩ : ∃ (p : Fin 1) (q : Fin 2048), y = ix2 p q := ⟨y 0, y 1, eq_ix2 y⟩
  obtain rfl : p = 0 := Subsingleton.elim _ _
  exact (final_sums V c h q).2

/-- The one write-back of the first result, after the last point, writes the row of means: the
    block is the whole array, read through zero offsets. -/
theorem flushed_2 (c : Dev nD) (t : Fin cfg1.N) (hf : (cfg1.win 2).flush t = true) :
    (dat1 V c).flushed 2 t = ((cfg1.win 2).blk t).view.read (Elt Ideal) (meanRow V c) := by
  have h15 : t.val = 15 := by have := (flush1_2 t).mp hf; have := grid_lt t; omega
  obtain rfl : t = t1_15 := Fin.ext h15
  show (cfg1.win 2).cut (grid1.coords t1_15) ((dat1 V c).after 2 t1_15) = _
  rw [after1_2, show (outsAt1 V c t1_15.val t1_15.isLt).1 = meanRow V c from last_1 V c _]
  have hz' : (fun a => win1_2.index t1_15 a * main_v9_0.ty.shape.size a) = fun _ => 0 :=
    funext fun a => by fin_cases a <;> decide
  exact (Memref.read_access_unit_zero (Elt Ideal) main_v9_0 hz' (fun a => by rw [congrFun hz' a]; simp)
    (meanRow V c)).symm

/-- Likewise the second result: the row of fractions. -/
theorem flushed_3 (c : Dev nD) (t : Fin cfg1.N) (hf : (cfg1.win 3).flush t = true) :
    (dat1 V c).flushed 3 t = ((cfg1.win 3).blk t).view.read (Elt Ideal) (fracRow V c) := by
  have h15 : t.val = 15 := by have := (flush1_3 t).mp hf; have := grid_lt t; omega
  obtain rfl : t = t1_15 := Fin.ext h15
  show (cfg1.win 3).cut (grid1.coords t1_15) ((dat1 V c).after 3 t1_15) = _
  rw [after1_3, show (outsAt1 V c t1_15.val t1_15.isLt).2 = fracRow V c from last_2 V c _]
  have hz' : (fun a => win1_3.index t1_15 a * main_v9_1.ty.shape.size a) = fun _ => 0 :=
    funext fun a => by fin_cases a <;> decide
  exact (Memref.read_access_unit_zero (Elt Ideal) main_v9_1 hz' (fun a => by rw [congrFun hz' a]; simp)
    (fracRow V c)).symm

/-- The first result array ends holding, column by column, the mean absolute new hidden state. -/
theorem meanAbs_arr (c : Dev nD) :
    (dat1 (F := Ideal) V c).arrAt 2 cfg1.N
      = fun y : S1x2048.Idx => Spec.meanAbs (fun r j => V c main_v8_1 (ix2 r j)) ⟨(y 1).val, (y 1).isLt⟩ :=
  (dat1 V c).arrAt_eq_of_cover 2 (meanRow V c) (flushed_2 V c) fun i =>
    ⟨t1_15, (flush1_2 t1_15).mpr rfl, by
      show i ∈ ((View.whole main_v9_0).slice (win1_2.rect t1_15)).set
      rw [View.set_slice_whole, Rect.mem_set_unit]
      intro a
      have h0 : (i 0 : Nat) < 1 := (i 0).isLt
      have h1 : (i 1 : Nat) < 2048 := (i 1).isLt
      match a with
      | ⟨0, _⟩ =>
        show win1_2.index t1_15 0 * win1_2.size 0 ≤ (i 0 : Nat)
          ∧ (i 0 : Nat) < win1_2.index t1_15 0 * win1_2.size 0 + win1_2.xsize (grid1.coords t1_15) 0
        rw [show win1_2.index t1_15 0 * win1_2.size 0 = 0 from by decide +kernel,
          show win1_2.xsize (grid1.coords t1_15) 0 = 1 from by decide +kernel]
        omega
      | ⟨1, _⟩ =>
        show win1_2.index t1_15 1 * win1_2.size 1 ≤ (i 1 : Nat)
          ∧ (i 1 : Nat) < win1_2.index t1_15 1 * win1_2.size 1 + win1_2.xsize (grid1.coords t1_15) 1
        rw [show win1_2.index t1_15 1 * win1_2.size 1 = 0 from by decide +kernel,
          show win1_2.xsize (grid1.coords t1_15) 1 = 2048 from by decide +kernel]
        omega⟩

/-- The second result array ends holding, column by column, the fraction of the batch whose
    previous state exceeds the threshold in absolute value. -/
theorem fracAbove_arr (c : Dev nD) :
    (dat1 (F := Ideal) V c).arrAt 3 cfg1.N
      = fun y : S1x2048.Idx => Spec.fracAbove (V c main_arg1) ⟨(y 1).val, (y 1).isLt⟩ :=
  (dat1 V c).arrAt_eq_of_cover 3 (fracRow V c) (flushed_3 V c) fun i =>
    ⟨t1_15, (flush1_3 t1_15).mpr rfl, by
      show i ∈ ((View.whole main_v9_1).slice (win1_3.rect t1_15)).set
      rw [View.set_slice_whole, Rect.mem_set_unit]
      intro a
      have h0 : (i 0 : Nat) < 1 := (i 0).isLt
      have h1 : (i 1 : Nat) < 2048 := (i 1).isLt
      match a with
      | ⟨0, _⟩ =>
        show win1_3.index t1_15 0 * win1_3.size 0 ≤ (i 0 : Nat)
          ∧ (i 0 : Nat) < win1_3.index t1_15 0 * win1_3.size 0 + win1_3.xsize (grid1.coords t1_15) 0
        rw [show win1_3.index t1_15 0 * win1_3.size 0 = 0 from by decide +kernel,
          show win1_3.xsize (grid1.coords t1_15) 0 = 1 from by decide +kernel]
        omega
      | ⟨1, _⟩ =>
        show win1_3.index t1_15 1 * win1_3.size 1 ≤ (i 1 : Nat)
          ∧ (i 1 : Nat) < win1_3.index t1_15 1 * win1_3.size 1 + win1_3.xsize (grid1.coords t1_15) 1
        rw [show win1_3.index t1_15 1 * win1_3.size 1 = 0 from by decide +kernel,
          show win1_3.xsize (grid1.coords t1_15) 1 = 2048 from by decide +kernel]
        omega⟩

end Cert.KernelIdeal.StatsValue

end
-- ==== Proof.lean ====
/-
  A ReLU recurrent cell with two per-neuron batch statistics, computed by two pipelined kernels, against its
  plain reference on the extended reals.

  For x : 8192×1024, h : 8192×2048, weights W_in, W_hh, W_out and biases b_h, b_out the four results are

    hid  = max (x·W_inᵀ + h·W_hhᵀ + b_h) 0          (8192×2048)
    out  = hid·W_outᵀ + b_out                        (8192×1024)
    meanAbs j   = (Σ_b |hid b j|) / 8192             (2048)
    fracAbove j = (Σ_b [ |h b j| > 0.1 ]) / 8192     (2048)

  The first kernel takes 256 batch rows per grid point and writes that row range of `hid` and of `out`: each
  entry is a sum over the contracted axis, the same sum the reference's product has at that entry, and the 32
  row ranges tile the batch. The second takes 512 rows per point and carries two rows of 2048 partial sums
  from point to point: zero at the first point, plus the point's column sums at every point, times 2⁻¹³ at the
  last. Sixteen block sums regroup into the one sum over the batch by associativity and commutativity of
  addition, which hold on all extended reals, and multiplying by 2⁻¹³ is dividing by 8192 there too. The
  comparison's bit read through a 32-bit zero extension as a signed integer is the bit read unsigned: 0 or 1.
  No step uses finiteness of the inputs.

  Modules: Spec (the four functions), CellValue and StatsValue (what each kernel's pipeline leaves in its
  output arrays, for any entry contents), WholeRun and WholeFold (the program's four segments run with the
  results named, and the contents at each boundary), KernelSpec and RefSpec (each side's results as the
  specification of the arguments), Claims (the five claims).
-/
import proofs.«168222_j50929722196184_1_alg».proof.Defs
import proofs.«168222_j50929722196184_1_alg».proof.Proof.Gen.Kernel
import proofs.«168222_j50929722196184_1_alg».proof.Proof.Gen.Kernel.Skeleton
import proofs.«168222_j50929722196184_1_alg».proof.Proof.Gen.Kernel.Launch
import proofs.«168222_j50929722196184_1_alg».proof.Proof.Gen.Kernel.Points
import proofs.«168222_j50929722196184_1_alg».proof.Proof.Gen.Kernel.Frame
import proofs.«168222_j50929722196184_1_alg».proof.Proof.Gen.KernelIdeal
import proofs.«168222_j50929722196184_1_alg».proof.Proof.Gen.KernelIdeal.Skeleton
import proofs.«168222_j50929722196184_1_alg».proof.Proof.Gen.KernelIdeal.Launch
import proofs.«168222_j50929722196184_1_alg».proof.Proof.Gen.KernelIdeal.Points
import proofs.«168222_j50929722196184_1_alg».proof.Proof.Gen.KernelIdeal.Frame
import proofs.«168222_j50929722196184_1_alg».proof.Proof.Gen.ReferenceIdeal
import proofs.«168222_j50929722196184_1_alg».proof.Proof.Gen.ReferenceIdeal.Run
import proofs.«168222_j50929722196184_1_alg».proof.Proof.Gen.ReferenceIdeal.Read
import proofs.«168222_j50929722196184_1_alg».proof.Proof.Gen.Pre_finite_inputs
import proofs.«168222_j50929722196184_1_alg».proof.Proof.Claims
import proofs.«168222_j50929722196184_1_alg».proof.Proof.CellValue
import proofs.«168222_j50929722196184_1_alg».proof.Proof.StatsValue
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves,
    Claims.algebraic Cert.KernelIdeal.CellValue.hid_arr Cert.KernelIdeal.CellValue.out_arr
      Cert.KernelIdeal.StatsValue.meanAbs_arr Cert.KernelIdeal.StatsValue.fracAbove_arr⟩

end Cert.Proof

end
